-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x3 : Shape := ⟨2, ![131072, 3]⟩
abbrev S513x256 : Shape := ⟨2, ![513, 256]⟩
abbrev S256 : Shape := ⟨1, ![256]⟩
abbrev S256x256 : Shape := ⟨2, ![256, 256]⟩
abbrev S256x3 : Shape := ⟨2, ![256, 3]⟩
abbrev S512x256 : Shape := ⟨2, ![512, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x3 : S_.BroadcastsInDim S131072x3 (![] : Fin 0 → Fin S131072x3.rank)
  reducesTo_S131072x3_S_d0_1 : S131072x3.ReducesTo [0, 1] S_
  bcast_S_S513x256 : S_.BroadcastsInDim S513x256 (![] : Fin 0 → Fin S513x256.rank)
  reducesTo_S513x256_S_d0_1 : S513x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x3 : S_.BroadcastsInDim S256x3 (![] : Fin 0 → Fin S256x3.rank)
  reducesTo_S256x3_S_d0_1 : S256x3.ReducesTo [0, 1] S_
  bcast_S_S512x256 : S_.BroadcastsInDim S512x256 (![] : Fin 0 → Fin S512x256.rank)
  reducesTo_S512x256_S_d0_1 : S512x256.ReducesTo [0, 1] S_

variable [Facts]

def fn_part3 {F : FTy → Type} [FloatOps F] (main_arg11 : FVec F S256x256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256 .f32) (main_arg8 : FVec F S256x3 .f32) (main_arg9 : FVec F S512x256 .f32) (main_arg10 : FVec F S256 .f32) (main_arg11 : FVec F S256x256 .f32) (main_arg12 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x3 .f32 := Host.absf main_arg8
  let main_cst_14 : FVec F S_ .f32 := constant S_ .f32 0x7F800000#32
  let main_v40 : FVec F S256x3 .f32 := broadcastInDim S256x3 ![] bcast_S_S256x3 main_cst_14
  let main_v41 : IVec S256x3 1 := cmpf .olt main_v39 main_v40
  let main_c_15 : IVec S_ 1 := constantI S_ 1 1#1
  let main_v42 : IVec S_ 1 := (fun x v => Host.reduce IntOp.andi x v reducesTo_S256x3_S_d0_1 h_S_) main_v41 main_c_15
  let main_v43 : IVec S_ 1 := andi main_v38 main_v42
  let main_v44 : FVec F S512x256 .f32 := Host.absf main_arg9
  let main_cst_16 : FVec F S_ .f32 := constant S_ .f32 0x7F800000#32
  let main_v45 : FVec F S512x256 .f32 := broadcastInDim S512x256 ![] bcast_S_S512x256 main_cst_16
  let main_v46 : IVec S512x256 1 := cmpf .olt main_v44 main_v45
  let main_c_17 : IVec S_ 1 := constantI S_ 1 1#1
  let main_v47 : IVec S_ 1 := (fun x v => Host.reduce IntOp.andi x v reducesTo_S512x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x3 .f32) (main_arg9 : FVec F S512x256 .f32) (main_arg10 : FVec F S256 .f32) (main_arg11 : FVec F S256x256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x256 .f32) (main_arg1 : FVec F S131072x3 .f32) (main_arg2 : FVec F S513x256 .f32) (main_arg3 : FVec F S256 .f32) (main_arg4 : FVec F S256x256 .f32) (main_arg5 : FVec F S256 .f32) (main_arg6 : FVec F S256x256 .f32) (main_arg7 : FVec F S256 .f32) (main_arg8 : FVec F S256x3 .f32) (main_arg9 : FVec F S512x256 .f32) (main_arg10 : FVec F S256 .f32) (main_arg11 : FVec F S256x256 .f32) (main_arg12 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x3 .f32 := Host.absf main_arg1
  let main_cst_0 : FVec F S_ .f32 := constant S_ .f32 0x7F800000#32
  let main_v5 : FVec F S131072x3 .f32 := broadcastInDim S131072x3 ![] bcast_S_S131072x3 main_cst_0
  let main_v6 : IVec S131072x3 1 := cmpf .olt main_v4 main_v5
  let main_c_1 : IVec S_ 1 := constantI S_ 1 1#1
  let main_v7 : IVec S_ 1 := (fun x v => Host.reduce IntOp.andi x v reducesTo_S131072x3_S_d0_1 h_S_) main_v6 main_c_1
  let main_v8 : IVec S_ 1 := andi main_v3 main_v7
  let main_v9 : FVec F S513x256 .f32 := Host.absf main_arg2
  let main_cst_2 : FVec F S_ .f32 := constant S_ .f32 0x7F800000#32
  let main_v10 : FVec F S513x256 .f32 := broadcastInDim S513x256 ![] bcast_S_S513x256 main_cst_2
  let main_v11 : IVec S513x256 1 := cmpf .olt main_v9 main_v10
  let main_c_3 : IVec S_ 1 := constantI S_ 1 1#1
  let main_v12 : IVec S_ 1 := (fun x v => Host.reduce IntOp.andi x v reducesTo_S513x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_v13 main_v16
-- ==== Kernel.lean ====
abbrev S131072x256 : Shape := ⟨2, ![131072, 256]⟩
abbrev S131072x3 : Shape := ⟨2, ![131072, 3]⟩
abbrev S513x256 : Shape := ⟨2, ![513, 256]⟩
abbrev S256 : Shape := ⟨1, ![256]⟩
abbrev S256x256 : Shape := ⟨2, ![256, 256]⟩
abbrev S256x3 : Shape := ⟨2, ![256, 3]⟩
abbrev S512x256 : Shape := ⟨2, ![512, 256]⟩
abbrev S_ : Shape := ⟨0, ![]⟩
abbrev S1x256 : Shape := ⟨2, ![1, 256]⟩
abbrev S1x3 : Shape := ⟨2, ![1, 3]⟩
abbrev S131071x256 : Shape := ⟨2, ![131071, 256]⟩
abbrev S131071x3 : Shape := ⟨2, ![131071, 3]⟩
abbrev S2048x256 : Shape := ⟨2, ![2048, 256]⟩
abbrev S2048x3 : Shape := ⟨2, ![2048, 3]⟩
abbrev S2048 : Shape := ⟨1, ![2048]⟩
abbrev S2048x1 : Shape := ⟨2, ![2048, 1]⟩
abbrev S2048x513 : Shape := ⟨2, ![2048, 513]⟩
abbrev S2048x512 : Shape := ⟨2, ![2048, 512]⟩

abbrev nBuf : Space → Nat
  | .hbm => 40
  | .vmem => 29
  | .smem => 0
  | _ => 0

abbrev bufTy : (tb : Table) → Fin (tcTables nBuf tb) → BufTy
  | .hbm, ⟨0, _⟩ => ⟨S131072x256, .f32⟩
  | .hbm, ⟨1, _⟩ => ⟨S131072x3, .f32⟩
  | .hbm, ⟨2, _⟩ => ⟨S513x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x3, .f32⟩
  | .hbm, ⟨9, _⟩ => ⟨S512x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S_, .f32⟩
  | .hbm, ⟨14, _⟩ => ⟨S1x256, .f32⟩
  | .hbm, ⟨15, _⟩ => ⟨S_, .f32⟩
  | .hbm, ⟨16, _⟩ => ⟨S1x3, .f32⟩
  | .hbm, ⟨17, _⟩ => ⟨S131071x256, .f32⟩
  | .hbm, ⟨18, _⟩ => ⟨S131072x256, .f32⟩
  | .hbm, ⟨19, _⟩ => ⟨S131071x3, .f32⟩
  | .hbm, ⟨20, _⟩ => ⟨S131072x3, .f32⟩
  | .hbm, ⟨21, _⟩ => ⟨S131072x256, .f32⟩
  | .hbm, ⟨22, _⟩ => ⟨S131072x3, .f32⟩
  | .hbm, ⟨23, _⟩ => ⟨S131071x256, .f32⟩
  | .hbm, ⟨24, _⟩ => ⟨S131071x3, .f32⟩
  | .hbm, ⟨25, _⟩ => ⟨S_, .f32⟩
  | .hbm, ⟨26, _⟩ => ⟨S1x256, .f32⟩
  | .hbm, ⟨27, _⟩ => ⟨S_, .f32⟩
  | .hbm, ⟨28, _⟩ => ⟨S1x3, .f32⟩
  | .hbm, ⟨29, _⟩ => ⟨S131072x256, .f32⟩
  | .hbm, ⟨30, _⟩ => ⟨S131072x256, .f32⟩
  | .hbm, ⟨31, _⟩ => ⟨S131072x256, .f32⟩
  | .hbm, ⟨32, _⟩ => ⟨S131072x3, .f32⟩
  | .hbm, ⟨33, _⟩ => ⟨S131072x3, .f32⟩
  | .hbm, ⟨34, _⟩ => ⟨S131072x3, .f32⟩
  | .hbm, ⟨35, _⟩ => ⟨S131072x256, .f32⟩
  | .hbm, ⟨36, _⟩ => ⟨S_, .f32⟩
  | .hbm, ⟨37, _⟩ => ⟨S131072x3, .f32⟩
  | .hbm, ⟨38, _⟩ => ⟨S131072x3, .f32⟩
  | .hbm, ⟨39, _⟩ => ⟨S131072x3, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x3, .f32⟩
  | .local _ .vmem, ⟨5, _⟩ => ⟨S2048x3, .f32⟩
  | .local _ .vmem, ⟨6, _⟩ => ⟨S2048x3, .f32⟩
  | .local _ .vmem, ⟨7, _⟩ => ⟨S2048x3, .f32⟩
  | .local _ .vmem, ⟨8, _⟩ => ⟨S513x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x3, .f32⟩
  | .local _ .vmem, ⟨15, _⟩ => ⟨S2048x256, .f32⟩
  | .local _ .vmem, ⟨16, _⟩ => ⟨S2048x256, .f32⟩
  | .local _ .vmem, ⟨17, _⟩ => ⟨S2048x3, .f32⟩
  | .local _ .vmem, ⟨18, _⟩ => ⟨S2048x3, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S512x256, .f32⟩
  | .local _ .vmem, ⟨24, _⟩ => ⟨S256, .f32⟩
  | .local _ .vmem, ⟨25, _⟩ => ⟨S256x256, .f32⟩
  | .local _ .vmem, ⟨26, _⟩ => ⟨S256, .f32⟩
  | .local _ .vmem, ⟨27, _⟩ => ⟨S2048x256, .f32⟩
  | .local _ .vmem, ⟨28, _⟩ => ⟨S2048x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem6_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S513x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1x256 : S_.BroadcastsInDim S1x256 (![] : Fin 0 → Fin S1x256.rank)
  bcast_S_S1x3 : S_.BroadcastsInDim S1x3 (![] : Fin 0 → Fin S1x3.rank)
  slices_S131072x256_S131071x256_1_0 : S131072x256.Slices ![1, 0] S131071x256
  concatenates_S131071x256_S1x256_S131072x256_d0 : Shape.Concatenates [S131071x256, S1x256] S131072x256 0
  slices_S131072x3_S131071x3_1_0 : S131072x3.Slices ![1, 0] S131071x3
  concatenates_S131071x3_S1x3_S131072x3_d0 : Shape.Concatenates [S131071x3, S1x3] S131072x3 0
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  reduces_S2048x3_S2048 : S2048x3.Reduces [1] S2048
  shapeCasts_S2048_S2048x1 : S2048.ShapeCasts S2048x1
  concatenates_S2048x256_S2048x256_S2048x1_S2048x513_d1 : Shape.Concatenates [S2048x256, S2048x256, S2048x1] S2048x513 1
  bitsLt_bf16_f32 : FTy.bits .bf16 < FTy.bits .f32
  inb_S513x256_S513x256_0_0 : ∀ a, (![0, 0] : Fin 2 → Nat) a + S513x256.size a ≤ S513x256.size a
  h_S513x256 : 0 < S513x256.numel
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x3_S256x3_0_0 : ∀ a, (![0, 0] : Fin 2 → Nat) a + S256x3.size a ≤ S256x3.size a
  h_S256x3 : 0 < S256x3.numel
  slices_S131072x256_S131071x256_0_0 : S131072x256.Slices ![0, 0] S131071x256
  slices_S131072x3_S131071x3_0_0 : S131072x3.Slices ![0, 0] S131071x3
  concatenates_S1x256_S131071x256_S131072x256_d0 : Shape.Concatenates [S1x256, S131071x256] S131072x256 0
  concatenates_S1x3_S131071x3_S131072x3_d0 : Shape.Concatenates [S1x3, S131071x3] S131072x3 0
  concatenates_S2048x256_S2048x256_S2048x512_d1 : Shape.Concatenates [S2048x256, S2048x256] S2048x512 1
  inb_S512x256_S512x256_0_0 : ∀ a, (![0, 0] : Fin 2 → Nat) a + S512x256.size a ≤ S512x256.size a
  h_S512x256 : 0 < S512x256.numel
  bcast_S_S131072x3 : S_.BroadcastsInDim S131072x3 (![] : Fin 0 → Fin S131072x3.rank)
  dot_S2048x513_S513x256_S2048x256_1_0_0_1_n_n_wf : DotDims.WF S2048x513 S513x256 S2048x256 [1] [0] [0] [1] [] []
  dot_S2048x256_S256x256_S2048x256_1_0_0_1_n_n_wf : DotDims.WF S2048x256 S256x256 S2048x256 [1] [0] [0] [1] [] []
  dot_S2048x256_S256x3_S2048x3_1_0_0_1_n_n_wf : DotDims.WF S2048x256 S256x3 S2048x3 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S131072x256.size a
  hwx0_1 : ∀ i : grid0.Coords, EltTy.bits .f32 = 32 ∨ (Rect.block (s := S131072x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x3.size a ≤ S131072x3.size a
  hwx0_2 : ∀ i : grid0.Coords, EltTy.bits .f32 = 32 ∨ (Rect.block (s := S131072x3) S2048x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x3.size a ≤ S131072x3.size a
  hwx0_3 : ∀ i : grid0.Coords, EltTy.bits .f32 = 32 ∨ (Rect.block (s := S131072x3) S2048x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S513x256.size a ≤ S513x256.size a
  hwx0_4 : ∀ i : grid0.Coords, EltTy.bits .f32 = 32 ∨ (Rect.block (s := S513x256) S513x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x3.size a ≤ S256x3.size a
  hwx0_10 : ∀ i : grid0.Coords, EltTy.bits .f32 = 32 ∨ (Rect.block (s := S256x3) S256x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x256.size a ≤ S131072x256.size a
  hwx0_11 : ∀ i : grid0.Coords, EltTy.bits .f32 = 32 ∨ (Rect.block (s := S131072x256) S2048x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x3.size a ≤ S131072x3.size a
  hwx0_12 : ∀ i : grid0.Coords, EltTy.bits .f32 = 32 ∨ (Rect.block (s := S131072x3) S2048x3.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S131072x256.size a
  hwx1_0 : ∀ i : grid1.Coords, EltTy.bits .f32 = 32 ∨ (Rect.block (s := S131072x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S131072x256.size a
  hwx1_1 : ∀ i : grid1.Coords, EltTy.bits .f32 = 32 ∨ (Rect.block (s := S131072x256) S2048x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S131072x256.size a
  hwx1_6 : ∀ i : grid1.Coords, EltTy.bits .f32 = 32 ∨ (Rect.block (s := S131072x256) S2048x256.size (cc1_transform_6 i) (hinb1_6 i)).WholeWords (EltTy.packing .f32)

variable [Facts₀]

def dot_S2048x513_S513x256_S2048x256_1_0_0_1_n_n : DotDims S2048x513 S513x256 S2048x256 where
  lhsContracting := [1]
  rhsContracting := [0]
  lhsNonContracting := [0]
  rhsNonContracting := [1]
  lhsBatch := []
  rhsBatch := []
  wf := dot_S2048x513_S513x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x3_S2048x3_1_0_0_1_n_n : DotDims S2048x256 S256x3 S2048x3 where
  lhsContracting := [1]
  rhsContracting := [0]
  lhsNonContracting := [0]
  rhsNonContracting := [1]
  lhsBatch := []
  rhsBatch := []
  wf := dot_S2048x256_S256x3_S2048x3_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S513x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S2048x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S2048x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S2048x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S131072x256 : Shape := ⟨2, ![131072, 256]⟩
abbrev S131072x3 : Shape := ⟨2, ![131072, 3]⟩
abbrev S513x256 : Shape := ⟨2, ![513, 256]⟩
abbrev S256 : Shape := ⟨1, ![256]⟩
abbrev S256x256 : Shape := ⟨2, ![256, 256]⟩
abbrev S256x3 : Shape := ⟨2, ![256, 3]⟩
abbrev S512x256 : Shape := ⟨2, ![512, 256]⟩
abbrev S131071x3 : Shape := ⟨2, ![131071, 3]⟩
abbrev S_ : Shape := ⟨0, ![]⟩
abbrev S131071 : Shape := ⟨1, ![131071]⟩
abbrev S131071x1 : Shape := ⟨2, ![131071, 1]⟩
abbrev S131071x256 : Shape := ⟨2, ![131071, 256]⟩
abbrev S131071x513 : Shape := ⟨2, ![131071, 513]⟩
abbrev S1x256 : Shape := ⟨2, ![1, 256]⟩
abbrev S1x3 : Shape := ⟨2, ![1, 3]⟩
abbrev S131072x512 : Shape := ⟨2, ![131072, 512]⟩

abbrev nBuf : Space → Nat
  | .hbm => 87
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x3, .f32⟩
  | .hbm, ⟨2, _⟩ => ⟨S513x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x3, .f32⟩
  | .hbm, ⟨9, _⟩ => ⟨S512x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S131071x3, .f32⟩
  | .hbm, ⟨14, _⟩ => ⟨S131071x3, .f32⟩
  | .hbm, ⟨15, _⟩ => ⟨S131071x3, .f32⟩
  | .hbm, ⟨16, _⟩ => ⟨S131071x3, .f32⟩
  | .hbm, ⟨17, _⟩ => ⟨S_, .f32⟩
  | .hbm, ⟨18, _⟩ => ⟨S131071, .f32⟩
  | .hbm, ⟨19, _⟩ => ⟨S131071x1, .f32⟩
  | .hbm, ⟨20, _⟩ => ⟨S131071x1, .f32⟩
  | .hbm, ⟨21, _⟩ => ⟨S131071x256, .f32⟩
  | .hbm, ⟨22, _⟩ => ⟨S131071x256, .f32⟩
  | .hbm, ⟨23, _⟩ => ⟨S131071x513, .f32⟩
  | .hbm, ⟨24, _⟩ => ⟨S131071x256, .f32⟩
  | .hbm, ⟨25, _⟩ => ⟨S1x256, .f32⟩
  | .hbm, ⟨26, _⟩ => ⟨S131071x256, .f32⟩
  | .hbm, ⟨27, _⟩ => ⟨S131071x256, .f32⟩
  | .hbm, ⟨28, _⟩ => ⟨S131071x256, .f32⟩
  | .hbm, ⟨29, _⟩ => ⟨S131071x256, .f32⟩
  | .hbm, ⟨30, _⟩ => ⟨S_, .f32⟩
  | .hbm, ⟨31, _⟩ => ⟨S131071x256, .f32⟩
  | .hbm, ⟨32, _⟩ => ⟨S131071x256, .f32⟩
  | .hbm, ⟨33, _⟩ => ⟨S_, .f32⟩
  | .hbm, ⟨34, _⟩ => ⟨S131071x256, .f32⟩
  | .hbm, ⟨35, _⟩ => ⟨S131071x256, .f32⟩
  | .hbm, ⟨36, _⟩ => ⟨S131071x256, .f32⟩
  | .hbm, ⟨37, _⟩ => ⟨S131071x256, .f32⟩
  | .hbm, ⟨38, _⟩ => ⟨S1x256, .f32⟩
  | .hbm, ⟨39, _⟩ => ⟨S131071x256, .f32⟩
  | .hbm, ⟨40, _⟩ => ⟨S131071x256, .f32⟩
  | .hbm, ⟨41, _⟩ => ⟨S131071x256, .f32⟩
  | .hbm, ⟨42, _⟩ => ⟨S1x256, .f32⟩
  | .hbm, ⟨43, _⟩ => ⟨S131071x256, .f32⟩
  | .hbm, ⟨44, _⟩ => ⟨S131071x256, .f32⟩
  | .hbm, ⟨45, _⟩ => ⟨S131071x256, .f32⟩
  | .hbm, ⟨46, _⟩ => ⟨S131071x256, .f32⟩
  | .hbm, ⟨47, _⟩ => ⟨S_, .f32⟩
  | .hbm, ⟨48, _⟩ => ⟨S131071x256, .f32⟩
  | .hbm, ⟨49, _⟩ => ⟨S131071x256, .f32⟩
  | .hbm, ⟨50, _⟩ => ⟨S_, .f32⟩
  | .hbm, ⟨51, _⟩ => ⟨S131071x256, .f32⟩
  | .hbm, ⟨52, _⟩ => ⟨S131071x256, .f32⟩
  | .hbm, ⟨53, _⟩ => ⟨S131071x256, .f32⟩
  | .hbm, ⟨54, _⟩ => ⟨S131071x3, .f32⟩
  | .hbm, ⟨55, _⟩ => ⟨S_, .f32⟩
  | .hbm, ⟨56, _⟩ => ⟨S1x3, .f32⟩
  | .hbm, ⟨57, _⟩ => ⟨S_, .f32⟩
  | .hbm, ⟨58, _⟩ => ⟨S1x256, .f32⟩
  | .hbm, ⟨59, _⟩ => ⟨S131072x3, .f32⟩
  | .hbm, ⟨60, _⟩ => ⟨S131072x3, .f32⟩
  | .hbm, ⟨61, _⟩ => ⟨S131072x3, .f32⟩
  | .hbm, ⟨62, _⟩ => ⟨S131072x256, .f32⟩
  | .hbm, ⟨63, _⟩ => ⟨S131072x256, .f32⟩
  | .hbm, ⟨64, _⟩ => ⟨S131072x256, .f32⟩
  | .hbm, ⟨65, _⟩ => ⟨S131072x512, .f32⟩
  | .hbm, ⟨66, _⟩ => ⟨S131072x256, .f32⟩
  | .hbm, ⟨67, _⟩ => ⟨S1x256, .f32⟩
  | .hbm, ⟨68, _⟩ => ⟨S131072x256, .f32⟩
  | .hbm, ⟨69, _⟩ => ⟨S131072x256, .f32⟩
  | .hbm, ⟨70, _⟩ => ⟨S131072x256, .f32⟩
  | .hbm, ⟨71, _⟩ => ⟨S131072x256, .f32⟩
  | .hbm, ⟨72, _⟩ => ⟨S_, .f32⟩
  | .hbm, ⟨73, _⟩ => ⟨S131072x256, .f32⟩
  | .hbm, ⟨74, _⟩ => ⟨S131072x256, .f32⟩
  | .hbm, ⟨75, _⟩ => ⟨S_, .f32⟩
  | .hbm, ⟨76, _⟩ => ⟨S131072x256, .f32⟩
  | .hbm, ⟨77, _⟩ => ⟨S131072x256, .f32⟩
  | .hbm, ⟨78, _⟩ => ⟨S131072x256, .f32⟩
  | .hbm, ⟨79, _⟩ => ⟨S131072x256, .f32⟩
  | .hbm, ⟨80, _⟩ => ⟨S1x256, .f32⟩
  | .hbm, ⟨81, _⟩ => ⟨S131072x256, .f32⟩
  | .hbm, ⟨82, _⟩ => ⟨S131072x256, .f32⟩
  | .hbm, ⟨83, _⟩ => ⟨S_, .f32⟩
  | .hbm, ⟨84, _⟩ => ⟨S131072x3, .f32⟩
  | .hbm, ⟨85, _⟩ => ⟨S131072x3, .f32⟩
  | .hbm, ⟨86, _⟩ => ⟨S131072x3, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_call0_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v20 : Ref sig .tc := ⟨.hbm, 53, rfl⟩
abbrev main_v21 : Ref sig .tc := ⟨.hbm, 54, rfl⟩
abbrev main_cst : Ref sig .tc := ⟨.hbm, 55, rfl⟩
abbrev main_v22 : Ref sig .tc := ⟨.hbm, 56, rfl⟩
abbrev main_cst_0 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_call3_v0 : Ref sig .tc := ⟨.hbm, 70, rfl⟩
abbrev main_call3_v1 : Ref sig .tc := ⟨.hbm, 71, rfl⟩
abbrev main_call3_cst : Ref sig .tc := ⟨.hbm, 72, rfl⟩
abbrev main_call3_v2 : Ref sig .tc := ⟨.hbm, 73, rfl⟩
abbrev main_call3_v3 : Ref sig .tc := ⟨.hbm, 74, rfl⟩
abbrev main_call3_cst_0 : Ref sig .tc := ⟨.hbm, 75, rfl⟩
abbrev main_call3_v4 : Ref sig .tc := ⟨.hbm, 76, rfl⟩
abbrev main_call3_v5 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_1 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩

abbrev nD : Nat := 1
abbrev τ : Topo := Topo.v7x

variable {F : FTy → Type} [FloatOps F]

class Facts₀ : Prop where
  slices_S131072x3_S131071x3_1_0 : S131072x3.Slices ![1, 0] S131071x3
  slices_S131072x3_S131071x3_0_0 : S131072x3.Slices ![0, 0] S131071x3
  reducesTo_S131071x3_S131071_d1 : S131071x3.ReducesTo [1] S131071
  h_S_ : 0 < S_.numel
  bcast_S131071_S131071x1_0 : S131071.BroadcastsInDim S131071x1 (![0] : Fin 1 → Fin S131071x1.rank)
  slices_S131072x256_S131071x256_0_0 : S131072x256.Slices ![0, 0] S131071x256
  slices_S131072x256_S131071x256_1_0 : S131072x256.Slices ![1, 0] S131071x256
  concatenates_S131071x256_S131071x256_S131071x1_S131071x513_d1 : Shape.Concatenates [S131071x256, S131071x256, S131071x1] S131071x513 1
  bcast_S256_S1x256_1 : S256.BroadcastsInDim S1x256 (![1] : Fin 1 → Fin S1x256.rank)
  bcast_S1x256_S131071x256_0_1 : S1x256.BroadcastsInDim S131071x256 (![0, 1] : Fin 2 → Fin S131071x256.rank)
  bcast_S_S131071x256 : S_.BroadcastsInDim S131071x256 (![] : Fin 0 → Fin S131071x256.rank)
  bcast_S_S1x3 : S_.BroadcastsInDim S1x3 (![] : Fin 0 → Fin S1x3.rank)
  bcast_S_S1x256 : S_.BroadcastsInDim S1x256 (![] : Fin 0 → Fin S1x256.rank)
  concatenates_S131071x3_S1x3_S131072x3_d0 : Shape.Concatenates [S131071x3, S1x3] S131072x3 0
  concatenates_S1x3_S131071x3_S131072x3_d0 : Shape.Concatenates [S1x3, S131071x3] S131072x3 0
  concatenates_S131071x256_S1x256_S131072x256_d0 : Shape.Concatenates [S131071x256, S1x256] S131072x256 0
  concatenates_S1x256_S131071x256_S131072x256_d0 : Shape.Concatenates [S1x256, S131071x256] S131072x256 0
  concatenates_S131072x256_S131072x256_S131072x512_d1 : Shape.Concatenates [S131072x256, S131072x256] S131072x512 1
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S_S131072x3 : S_.BroadcastsInDim S131072x3 (![] : Fin 0 → Fin S131072x3.rank)
  dot_S131071x513_S513x256_S131071x256_1_0_0_1_n_n_wf : DotDims.WF S131071x513 S513x256 S131071x256 [1] [0] [0] [1] [] []
  dot_S131071x256_S256x256_S131071x256_1_0_0_1_n_n_wf : DotDims.WF S131071x256 S256x256 S131071x256 [1] [0] [0] [1] [] []
  dot_S131071x256_S256x3_S131071x3_1_0_0_1_n_n_wf : DotDims.WF S131071x256 S256x3 S131071x3 [1] [0] [0] [1] [] []
  dot_S131072x512_S512x256_S131072x256_1_0_0_1_n_n_wf : DotDims.WF S131072x512 S512x256 S131072x256 [1] [0] [0] [1] [] []
  dot_S131072x256_S256x256_S131072x256_1_0_0_1_n_n_wf : DotDims.WF S131072x256 S256x256 S131072x256 [1] [0] [0] [1] [] []

variable [Facts₀]

def dot_S131071x513_S513x256_S131071x256_1_0_0_1_n_n : DotDims S131071x513 S513x256 S131071x256 where
  lhsContracting := [1]
  rhsContracting := [0]
  lhsNonContracting := [0]
  rhsNonContracting := [1]
  lhsBatch := []
  rhsBatch := []
  wf := dot_S131071x513_S513x256_S131071x256_1_0_0_1_n_n_wf
def dot_S131071x256_S256x256_S131071x256_1_0_0_1_n_n : DotDims S131071x256 S256x256 S131071x256 where
  lhsContracting := [1]
  rhsContracting := [0]
  lhsNonContracting := [0]
  rhsNonContracting := [1]
  lhsBatch := []
  rhsBatch := []
  wf := dot_S131071x256_S256x256_S131071x256_1_0_0_1_n_n_wf
def dot_S131071x256_S256x3_S131071x3_1_0_0_1_n_n : DotDims S131071x256 S256x3 S131071x3 where
  lhsContracting := [1]
  rhsContracting := [0]
  lhsNonContracting := [0]
  rhsNonContracting := [1]
  lhsBatch := []
  rhsBatch := []
  wf := dot_S131071x256_S256x3_S131071x3_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf

class Facts : Prop extends Facts₀ where

variable [Facts]
-- ==== Proof.KernelRun.lean ====
/-
  The idealized kernel program run whole, with its two results named.

  The program is five segments: host operations, the edge kernel's launch over 64 blocks of 2048 rows, host operations,
  the node kernel's launch over 64 blocks, host operations. The buffer contents at the segment boundaries are a fold
  from the launch memory: a stretch of host operations applies its operations in order, a launch replaces its arrays by
  what its write-backs leave. Every weakly fair execution ends with each unscoped buffer at the last boundary's contents;
  read at the two result buffers and at the thirteen arguments this is the statement below.
-/
import proofs.«170481_j40836549050449_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state the two result
    buffers hold the last boundary's contents and the thirteen argument arrays are as launched. -/
theorem run_results : θ_run defs (onTc (τ := τ) (main (F := F))) ⟨m, fun _ => 0, ρ⟩ (fun r => ∀ c : Dev nD,
      r.2.mem ((c.tc : Thread nD τ).loc main_v17) = W5 m ρ c (Proc.devRef .tc main_v17)
      ∧ r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v17 (by decide)),
       h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Whole

end
-- ==== Proof.GlueHost.lean ====
/-
  The buffer contents at the boundaries of the kernel program's five segments, read back through the host operations.

  Before the edge kernel the host operations build the "right neighbour" arrays: the feature and position arrays shifted
  up by one row, a zero row at the end. Between the kernels they build the nodes' update array from the edge attributes:
  the first 131071 rows with a zero row behind, plus the same rows with a zero row in front (and the same with a
  difference for the shifts of position). After the node kernel they add a tenth of that difference to the positions.
  No argument array is ever written.
-/
import proofs.«170481_j40836549050449_1_alg».proof.Proof.Gen.KernelIdeal.Frame
import Idealize.ShloMosaic.Lib.StableHlo.Run
import Idealize.ShloMosaic.PureOps.Ideal.Laws

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- A zero row of 256 entries. -/
abbrev zeroRow256 : FVec Ideal S1x256 .f32 := broadcastInDim S1x256 ![] bcast_S_S1x256 (constant (F := Ideal) S_ .f32 0x00000000#32)
/-- A zero row of 3 entries. -/
abbrev zeroRow3 : FVec Ideal S1x3 .f32 := broadcastInDim S1x3 ![] bcast_S_S1x3 (constant (F := Ideal) S_ .f32 0x00000000#32)

/-- The feature array shifted up by one row, a zero row at the end. -/
def upH (H : FVec Ideal S131072x256 .f32) : FVec Ideal S131072x256 .f32 :=
  concatenate S131072x256 0 [⟨S131071x256, extractStridedSlice S131071x256 ![1, 0] H slices_S131072x256_S131071x256_1_0⟩, ⟨S1x256, zeroRow256⟩] concatenates_S131071x256_S1x256_S131072x256_d0
/-- The position array shifted up by one row, a zero row at the end. -/
def upP (P : FVec Ideal S131072x3 .f32) : FVec Ideal S131072x3 .f32 :=
  concatenate S131072x3 0 [⟨S131071x3, extractStridedSlice S131071x3 ![1, 0] P slices_S131072x3_S131071x3_1_0⟩, ⟨S1x3, zeroRow3⟩] concatenates_S131071x3_S1x3_S131072x3_d0

/-- The nodes' updates from the edge attributes `E` (131071 rows): `[E; 0] + [0; E]`. -/
def pairSum (E : FVec Ideal S131071x256 .f32) : FVec Ideal S131072x256 .f32 :=
  addf (F := Ideal) (concatenate S131072x256 0 [⟨S131071x256, E⟩, ⟨S1x256, zeroRow256⟩] concatenates_S131071x256_S1x256_S131072x256_d0)
    (concatenate S131072x256 0 [⟨S1x256, zeroRow256⟩, ⟨S131071x256, E⟩] concatenates_S1x256_S131071x256_S131072x256_d0)
/-- The nodes' position updates from the edges' shifts `D` (131071 rows): `[D; 0] - [0; D]`. -/
def pairDiff (D : FVec Ideal S131071x3 .f32) : FVec Ideal S131072x3 .f32 :=
  subf (F := Ideal) (concatenate S131072x3 0 [⟨S131071x3, D⟩, ⟨S1x3, zeroRow3⟩] concatenates_S131071x3_S1x3_S131072x3_d0)
    (concatenate S131072x3 0 [⟨S1x3, zeroRow3⟩, ⟨S131071x3, D⟩] concatenates_S1x3_S131071x3_S131072x3_d0)
/-- The first 131071 rows of an array of 131072 rows of 256 entries. -/
abbrev headH (E : FVec Ideal S131072x256 .f32) : FVec Ideal S131071x256 .f32 := extractStridedSlice S131071x256 ![0, 0] E slices_S131072x256_S131071x256_0_0
/-- The first 131071 rows of an array of 131072 rows of 3 entries. -/
abbrev headP (D : FVec Ideal S131072x3 .f32) : FVec Ideal S131071x3 .f32 := extractStridedSlice S131071x3 ![0, 0] D slices_S131072x3_S131071x3_0_0
/-- The new positions: the positions plus a tenth (the float word of 0.1) of the position updates. -/
def newPos (P U : FVec Ideal S131072x3 .f32) : FVec Ideal S131072x3 .f32 :=
  addf (F := Ideal) P (mulf (F := Ideal) (broadcastInDim S131072x3 ![] bcast_S_S131072x3 (constant (F := Ideal) S_ .f32 0x3DCCCCCD#32)) U)

/-! ## The edge kernel's entry -/

theorem w1_arg0 (c : Dev nD) : W1 m ρ c (Proc.devRef .tc main_arg0) = m ((c : Thread nD τ).loc main_arg0) := by
  show StableHlo.after hostOps0 (W0 m ρ c) (Proc.devRef .tc main_arg0) = _
  after_results
theorem w1_arg1 (c : Dev nD) : W1 m ρ c (Proc.devRef .tc main_arg1) = m ((c : Thread nD τ).loc main_arg1) := by
  show StableHlo.after hostOps0 (W0 m ρ c) (Proc.devRef .tc main_arg1) = _
  after_results
theorem w1_arg2 (c : Dev nD) : W1 m ρ c (Proc.devRef .tc main_arg2) = m ((c : Thread nD τ).loc main_arg2) := by
  show StableHlo.after hostOps0 (W0 m ρ c) (Proc.devRef .tc main_arg2) = _
  after_results
theorem w1_arg3 (c : Dev nD) : W1 m ρ c (Proc.devRef .tc main_arg3) = m ((c : Thread nD τ).loc main_arg3) := by
  show StableHlo.after hostOps0 (W0 m ρ c) (Proc.devRef .tc main_arg3) = _
  after_results
theorem w1_arg4 (c : Dev nD) : W1 m ρ c (Proc.devRef .tc main_arg4) = m ((c : Thread nD τ).loc main_arg4) := by
  show StableHlo.after hostOps0 (W0 m ρ c) (Proc.devRef .tc main_arg4) = _
  after_results
theorem w1_arg5 (c : Dev nD) : W1 m ρ c (Proc.devRef .tc main_arg5) = m ((c : Thread nD τ).loc main_arg5) := by
  show StableHlo.after hostOps0 (W0 m ρ c) (Proc.devRef .tc main_arg5) = _
  after_results
theorem w1_arg6 (c : Dev nD) : W1 m ρ c (Proc.devRef .tc main_arg6) = m ((c : Thread nD τ).loc main_arg6) := by
  show StableHlo.after hostOps0 (W0 m ρ c) (Proc.devRef .tc main_arg6) = _
  after_results
theorem w1_arg7 (c : Dev nD) : W1 m ρ c (Proc.devRef .tc main_arg7) = m ((c : Thread nD τ).loc main_arg7) := by
  show StableHlo.after hostOps0 (W0 m ρ c) (Proc.devRef .tc main_arg7) = _
  after_results
theorem w1_arg8 (c : Dev nD) : W1 m ρ c (Proc.devRef .tc main_arg8) = m ((c : Thread nD τ).loc main_arg8) := by
  show StableHlo.after hostOps0 (W0 m ρ c) (Proc.devRef .tc main_arg8) = _
  after_results
theorem w1_arg9 (c : Dev nD) : W1 m ρ c (Proc.devRef .tc main_arg9) = m ((c : Thread nD τ).loc main_arg9) := by
  show StableHlo.after hostOps0 (W0 m ρ c) (Proc.devRef .tc main_arg9) = _
  after_results
theorem w1_arg10 (c : Dev nD) : W1 m ρ c (Proc.devRef .tc main_arg10) = m ((c : Thread nD τ).loc main_arg10) := by
  show StableHlo.after hostOps0 (W0 m ρ c) (Proc.devRef .tc main_arg10) = _
  after_results
theorem w1_arg11 (c : Dev nD) : W1 m ρ c (Proc.devRef .tc main_arg11) = m ((c : Thread nD τ).loc main_arg11) := by
  show StableHlo.after hostOps0 (W0 m ρ c) (Proc.devRef .tc main_arg11) = _
  after_results
theorem w1_arg12 (c : Dev nD) : W1 m ρ c (Proc.devRef .tc main_arg12) = m ((c : Thread nD τ).loc main_arg12) := by
  show StableHlo.after hostOps0 (W0 m ρ c) (Proc.devRef .tc main_arg12) = _
  after_results

theorem w1_v3 (c : Dev nD) : W1 m ρ c (Proc.devRef .tc main_v3) = upH (m ((c : Thread nD τ).loc main_arg0)) := by
  show StableHlo.after hostOps0 (W0 m ρ c) (Proc.devRef .tc main_v3) = _
  after_results
  rfl
theorem w1_v5 (c : Dev nD) : W1 m ρ c (Proc.devRef .tc main_v5) = upP (m ((c : Thread nD τ).loc main_arg1)) := by
  show StableHlo.after hostOps0 (W0 m ρ c) (Proc.devRef .tc main_v5) = _
  after_results
  rfl

/-! ## The edge kernel's exit -/

theorem w2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (w1_arg0 m ρ c)
theorem w2_arg1 (c : Dev nD) : W2 m ρ c (Proc.devRef .tc main_arg1) = m ((c : Thread nD τ).loc main_arg1) :=
  ((W2_arr m ρ c 2).trans (((dat0 (V1 m ρ) c).arrAt_in 2 rfl _).trans (A_eq0 (V1 m ρ) c 2))).trans (w1_arg1 m ρ c)
theorem w2_arg9 (c : Dev nD) : W2 m ρ c (Proc.devRef .tc main_arg9) = m ((c : Thread nD τ).loc main_arg9) :=
  (W2_of_ne m ρ c main_arg9 (by decide)).trans (w1_arg9 m ρ c)
theorem w2_arg10 (c : Dev nD) : W2 m ρ c (Proc.devRef .tc main_arg10) = m ((c : Thread nD τ).loc main_arg10) :=
  (W2_of_ne m ρ c main_arg10 (by decide)).trans (w1_arg10 m ρ c)
theorem w2_arg11 (c : Dev nD) : W2 m ρ c (Proc.devRef .tc main_arg11) = m ((c : Thread nD τ).loc main_arg11) :=
  (W2_of_ne m ρ c main_arg11 (by decide)).trans (w1_arg11 m ρ c)
theorem w2_arg12 (c : Dev nD) : W2 m ρ c (Proc.devRef .tc main_arg12) = m ((c : Thread nD τ).loc main_arg12) :=
  (W2_of_ne m ρ c main_arg12 (by decide)).trans (w1_arg12 m ρ c)

/-! ## The node kernel's entry -/

theorem w3_arg0 (c : Dev nD) : W3 m ρ c (Proc.devRef .tc main_arg0) = m ((c : Thread nD τ).loc main_arg0) := by
  refine Eq.trans ?_ (w2_arg0 m ρ c)
  show StableHlo.after hostOps1 (W2 m ρ c) (Proc.devRef .tc main_arg0) = _
  after_results
theorem w3_arg1 (c : Dev nD) : W3 m ρ c (Proc.devRef .tc main_arg1) = m ((c : Thread nD τ).loc main_arg1) := by
  refine Eq.trans ?_ (w2_arg1 m ρ c)
  show StableHlo.after hostOps1 (W2 m ρ c) (Proc.devRef .tc main_arg1) = _
  after_results
theorem w3_arg9 (c : Dev nD) : W3 m ρ c (Proc.devRef .tc main_arg9) = m ((c : Thread nD τ).loc main_arg9) := by
  refine Eq.trans ?_ (w2_arg9 m ρ c)
  show StableHlo.after hostOps1 (W2 m ρ c) (Proc.devRef .tc main_arg9) = _
  after_results
theorem w3_arg10 (c : Dev nD) : W3 m ρ c (Proc.devRef .tc main_arg10) = m ((c : Thread nD τ).loc main_arg10) := by
  refine Eq.trans ?_ (w2_arg10 m ρ c)
  show StableHlo.after hostOps1 (W2 m ρ c) (Proc.devRef .tc main_arg10) = _
  after_results
theorem w3_arg11 (c : Dev nD) : W3 m ρ c (Proc.devRef .tc main_arg11) = m ((c : Thread nD τ).loc main_arg11) := by
  refine Eq.trans ?_ (w2_arg11 m ρ c)
  show StableHlo.after hostOps1 (W2 m ρ c) (Proc.devRef .tc main_arg11) = _
  after_results
theorem w3_arg12 (c : Dev nD) : W3 m ρ c (Proc.devRef .tc main_arg12) = m ((c : Thread nD τ).loc main_arg12) := by
  refine Eq.trans ?_ (w2_arg12 m ρ c)
  show StableHlo.after hostOps1 (W2 m ρ c) (Proc.devRef .tc main_arg12) = _
  after_results

theorem w3_v13 (c : Dev nD) : W3 m ρ c (Proc.devRef .tc main_v13) = pairSum (headH (W2 m ρ c (Proc.devRef .tc main_v6_0))) := by
  show StableHlo.after hostOps1 (W2 m ρ c) (Proc.devRef .tc main_v13) = _
  after_results
  rfl
theorem w3_v16 (c : Dev nD) : W3 m ρ c (Proc.devRef .tc main_v16) = pairDiff (headP (W2 m ρ c (Proc.devRef .tc main_v6_1))) := by
  show StableHlo.after hostOps1 (W2 m ρ c) (Proc.devRef .tc main_v16) = _
  after_results
  rfl

/-! ## The node kernel's exit and the program's results -/

/-- The first result is what the node kernel's launch leaves in its output array. -/
theorem w5_v17 (c : Dev nD) : W5 m ρ c (Proc.devRef .tc main_v17) = (dat1 (V3 m ρ) c).arrAt 6 cfg1.N := by
  refine Eq.trans ?_ (W4_arr m ρ c 6)
  show StableHlo.after hostOps2 (W4 m ρ c) (Proc.devRef .tc main_v17) = _
  after_results

theorem w4_arg1 (c : Dev nD) : W4 m ρ c (Proc.devRef .tc main_arg1) = m ((c : Thread nD τ).loc main_arg1) :=
  (W4_of_ne m ρ c main_arg1 (by decide)).trans (w3_arg1 m ρ c)
theorem w4_v16 (c : Dev nD) : W4 m ρ c (Proc.devRef .tc main_v16) = pairDiff (headP (W2 m ρ c (Proc.devRef .tc main_v6_1))) :=
  (W4_of_ne m ρ c main_v16 (by decide)).trans (w3_v16 m ρ c)

/-- The second result: the positions plus a tenth of the position updates. -/
theorem w5_v20 (c : Dev nD) : W5 m ρ c (Proc.devRef .tc main_v20)
    = newPos (m ((c : Thread nD τ).loc main_arg1)) (pairDiff (headP (W2 m ρ c (Proc.devRef .tc main_v6_1)))) := by
  refine Eq.trans ?_ (congrArg₂ newPos (w4_arg1 m ρ c) (w4_v16 m ρ c))
  show StableHlo.after hostOps2 (W4 m ρ c) (Proc.devRef .tc main_v20) = _
  after_results
  rfl

end Cert.KernelIdeal.Whole

end
-- ==== Proof.Rows.lean ====
/-
  The mathematics of one layer of message passing on a chain graph, row by row, on the extended reals.

  Node `n` of the chain is joined to node `n + 1` by edge `n`. An edge's feature row is the two end nodes' feature
  rows set side by side, followed by the Euclidean distance between their positions; two dense layers with a SiLU
  between them turn it into the edge's attribute row; two more (the last without bias) turn that into a shift of
  position. A node's update row is the sum of the attribute rows of its (at most two) edges, and its new feature row
  comes from the node's row and its update row set side by side through two dense layers with a SiLU between them.
  Everything here is a function of rows given as functions on `Fin`: no array, no program.
-/
import Idealize.ShloMosaic.PureOps.Ideal.Laws
import Idealize.ShloMosaic.Lib.ValueIdx

noncomputable section

namespace Cert.Chain

open Idealize.ShloMosaic Idealize.ShloMosaic.ValueIdx

/-- The float word of 1.0 is the real number one. -/
theorem one_word : Ideal.ofBits .f32 0x3F800000#32 = 1 := by
  simp [Ideal.ofBits, Ideal.ieee]
  rw [← EReal.coe_mul, ← EReal.coe_one]
  congr 1
  norm_num

/-- SiLU: `z · σ(z)`, `σ` the logistic function `1 / (1 + e^(-z))`. -/
def silu (z : EReal) : EReal := z * Ideal.logistic z

/-- One output of a dense layer: `(∑ k, x k · w k c) + b c`. -/
def dense {K M : ℕ} (x : Fin K → EReal) (w : Fin K → Fin M → EReal) (b : Fin M → EReal) (c : Fin M) : EReal :=
  (∑ k : Fin K, x k * w k c) + b c

/-- Two rows of 256 entries and one more entry, set side by side: 513 entries. -/
def join3 (a b : Fin 256 → EReal) (d : EReal) (q : Fin 513) : EReal :=
  if h : q.val < 256 then a ⟨q.val, h⟩ else if h2 : q.val < 512 then b ⟨q.val - 256, by omega⟩ else d

/-- Two rows of 256 entries set side by side: 512 entries. -/
def join2 (a b : Fin 256 → EReal) (q : Fin 512) : EReal :=
  if h : q.val < 256 then a ⟨q.val, h⟩ else b ⟨q.val - 256, by omega⟩

/-- The Euclidean distance between two points of 3-space: the square root of the sum of squared differences. -/
def dist3 (pl pr : Fin 3 → EReal) : EReal := Ideal.sqrt (∑ k : Fin 3, (pr k - pl k) * (pr k - pl k))

/-- An edge's attribute row from its end nodes' feature rows `hl`, `hr` and positions `pl`, `pr`. -/
def edgeRow (hl hr : Fin 256 → EReal) (pl pr : Fin 3 → EReal) (w1 : Fin 513 → Fin 256 → EReal) (b1 : Fin 256 → EReal)
    (w2 : Fin 256 → Fin 256 → EReal) (b2 : Fin 256 → EReal) : Fin 256 → EReal :=
  dense (fun k => silu (dense (join3 hl hr (dist3 pl pr)) w1 b1 k)) w2 b2

/-- An edge's shift of position from its attribute row: a dense layer, SiLU, and a product without bias. -/
def shiftRow (ea : Fin 256 → EReal) (w1 : Fin 256 → Fin 256 → EReal) (b1 : Fin 256 → EReal)
    (w2 : Fin 256 → Fin 3 → EReal) (d : Fin 3) : EReal :=
  ∑ k : Fin 256, silu (dense ea w1 b1 k) * w2 k d

/-- A node's new feature row from its feature row `h` and its update row `nu`. -/
def nodeRow (h nu : Fin 256 → EReal) (w1 : Fin 512 → Fin 256 → EReal) (b1 : Fin 256 → EReal)
    (w2 : Fin 256 → Fin 256 → EReal) (b2 : Fin 256 → EReal) : Fin 256 → EReal :=
  dense (fun k => silu (dense (join2 h nu) w1 b1 k)) w2 b2

/-- Edge `n`'s left end: node `n`. -/
def lo (n : Fin 131071) : Fin 131072 := ⟨n.val, by have := n.isLt; omega⟩
/-- Edge `n`'s right end: node `n + 1`. -/
def hi (n : Fin 131071) : Fin 131072 := ⟨n.val + 1, by have := n.isLt; omega⟩

/-- Row `n` of a matrix. -/
def rowOf {R C : ℕ} (x : (⟨2, ![R, C]⟩ : Shape).Idx → EReal) (n : Fin R) : Fin C → EReal := fun k => x (ix2 n k)
/-- A matrix as a function of its two coordinates. -/
def matOf {R C : ℕ} (x : (⟨2, ![R, C]⟩ : Shape).Idx → EReal) : Fin R → Fin C → EReal := fun k c => x (ix2 k c)
/-- A vector as a function of its coordinate. -/
def vecOf {C : ℕ} (x : (⟨1, ![C]⟩ : Shape).Idx → EReal) : Fin C → EReal := fun c => x (ix1 c)

/-- The row coordinate of a matrix index. -/
def rowAt {R C : ℕ} (j : (⟨2, ![R, C]⟩ : Shape).Idx) : Fin R := ⟨(j 0).val, idx2_lt0 j⟩
/-- The column coordinate of a matrix index. -/
def colAt {R C : ℕ} (j : (⟨2, ![R, C]⟩ : Shape).Idx) : Fin C := ⟨(j 1).val, idx2_lt1 j⟩
theorem rowAt_ix2 {R C : ℕ} (n : Fin R) (c : Fin C) : rowAt (ix2 n c) = n := rfl
theorem colAt_ix2 {R C : ℕ} (n : Fin R) (c : Fin C) : colAt (ix2 n c) = c := rfl

/-- Edge attributes computed for every row `n` of four arrays of 131072 rows — the left ends' features `H`, the right
    ends' features `HR`, their positions `P`, `PR` —, row by row. -/
def edgeArr (H HR : (⟨2, ![131072, 256]⟩ : Shape).Idx → EReal) (P PR : (⟨2, ![131072, 3]⟩ : Shape).Idx → EReal)
    (W1 : (⟨2, ![513, 256]⟩ : Shape).Idx → EReal) (B1 : (⟨1, ![256]⟩ : Shape).Idx → EReal)
    (W2 : (⟨2, ![256, 256]⟩ : Shape).Idx → EReal) (B2 : (⟨1, ![256]⟩ : Shape).Idx → EReal) :
    (⟨2, ![131072, 256]⟩ : Shape).Idx → EReal :=
  fun j => edgeRow (rowOf H (rowAt j)) (rowOf HR (rowAt j)) (rowOf P (rowAt j)) (rowOf PR (rowAt j))
    (matOf W1) (vecOf B1) (matOf W2) (vecOf B2) (colAt j)

/-- The shifts of position computed from those edge attributes, row by row. -/
def shiftArr (H HR : (⟨2, ![131072, 256]⟩ : Shape).Idx → EReal) (P PR : (⟨2, ![131072, 3]⟩ : Shape).Idx → EReal)
    (W1 : (⟨2, ![513, 256]⟩ : Shape).Idx → EReal) (B1 : (⟨1, ![256]⟩ : Shape).Idx → EReal)
    (W2 : (⟨2, ![256, 256]⟩ : Shape).Idx → EReal) (B2 : (⟨1, ![256]⟩ : Shape).Idx → EReal)
    (U1 : (⟨2, ![256, 256]⟩ : Shape).Idx → EReal) (C1 : (⟨1, ![256]⟩ : Shape).Idx → EReal)
    (U2 : (⟨2, ![256, 3]⟩ : Shape).Idx → EReal) : (⟨2, ![131072, 3]⟩ : Shape).Idx → EReal :=
  fun j => shiftRow (edgeRow (rowOf H (rowAt j)) (rowOf HR (rowAt j)) (rowOf P (rowAt j)) (rowOf PR (rowAt j))
    (matOf W1) (vecOf B1) (matOf W2) (vecOf B2)) (matOf U1) (vecOf C1) (matOf U2) (colAt j)

/-- The nodes' new features from their features `H` and their updates `NU`, row by row. -/
def nodeArr (H NU : (⟨2, ![131072, 256]⟩ : Shape).Idx → EReal) (W1 : (⟨2, ![512, 256]⟩ : Shape).Idx → EReal)
    (B1 : (⟨1, ![256]⟩ : Shape).Idx → EReal) (W2 : (⟨2, ![256, 256]⟩ : Shape).Idx → EReal)
    (B2 : (⟨1, ![256]⟩ : Shape).Idx → EReal) : (⟨2, ![131072, 256]⟩ : Shape).Idx → EReal :=
  fun j => nodeRow (rowOf H (rowAt j)) (rowOf NU (rowAt j)) (matOf W1) (vecOf B1) (matOf W2) (vecOf B2) (colAt j)

end Cert.Chain

end
-- ==== Proof.Joins.lean ====
/-
  Rows set side by side, read at an entry: a matrix made by joining two 256-column matrices and a one-column matrix
  along the columns has, in row `n`, the first matrix's row, then the second's, then the column's entry; likewise for
  two 256-column matrices. Any number of rows.
-/
import proofs.«170481_j40836549050449_1_alg».proof.Proof.Rows
import Idealize.ShloMosaic.Lib.Pipeline.Value

noncomputable section

namespace Cert.Chain

open Idealize.ShloMosaic Idealize.ShloMosaic.ValueIdx

/-- Entry `(n, q)` of `[x | y | z]` (256, 256 and 1 columns) is entry `q` of the joined row. -/
theorem concat3_apply {R : ℕ} (x y : (⟨2, ![R, 256]⟩ : Shape).Idx → EReal) (z : (⟨2, ![R, 1]⟩ : Shape).Idx → EReal)
    (h : Shape.Concatenates [(⟨2, ![R, 256]⟩ : Shape), ⟨2, ![R, 256]⟩, ⟨2, ![R, 1]⟩] ⟨2, ![R, 513]⟩ 1) (n : Fin R) (q : Fin 513) :
    concatenate ⟨2, ![R, 513]⟩ 1 [⟨⟨2, ![R, 256]⟩, x⟩, ⟨⟨2, ![R, 256]⟩, y⟩, ⟨⟨2, ![R, 1]⟩, z⟩] h (ix2 n q)
      = join3 (rowOf x n) (rowOf y n) (z (ix2 n (0 : Fin 1))) q := by
  unfold join3 rowOf
  by_cases h1 : q.val < 256
  · rw [dif_pos h1]
    exact concatenate_apply_piece 1 [⟨⟨2, ![R, 256]⟩, x⟩, ⟨⟨2, ![R, 256]⟩, y⟩, ⟨⟨2, ![R, 1]⟩, z⟩] h (ix2 n q) 0 (by show (0 : ℕ) < 3; omega) _ x rfl rfl 0 rfl (ix2 n ⟨q.val, h1⟩)
      (fun b hb => by match b with | ⟨0, _⟩ => rfl | ⟨1, _⟩ => exact absurd rfl hb) (by show 0 + q.val = q.val; omega)
  · rw [dif_neg h1]
    by_cases h2 : q.val < 512
    · rw [dif_pos h2]
      exact concatenate_apply_piece 1 [⟨⟨2, ![R, 256]⟩, x⟩, ⟨⟨2, ![R, 256]⟩, y⟩, ⟨⟨2, ![R, 1]⟩, z⟩] h (ix2 n q) 1 (by show (1 : ℕ) < 3; omega) _ y rfl rfl 256 rfl (ix2 n ⟨q.val - 256, by omega⟩)
        (fun b hb => by match b with | ⟨0, _⟩ => rfl | ⟨1, _⟩ => exact absurd rfl hb) (by show 256 + (q.val - 256) = q.val; omega)
    · rw [dif_neg h2]
      exact concatenate_apply_piece 1 [⟨⟨2, ![R, 256]⟩, x⟩, ⟨⟨2, ![R, 256]⟩, y⟩, ⟨⟨2, ![R, 1]⟩, z⟩] h (ix2 n q) 2 (by show (2 : ℕ) < 3; omega) _ z rfl rfl 512 rfl (ix2 n (0 : Fin 1))
        (fun b hb => by match b with | ⟨0, _⟩ => rfl | ⟨1, _⟩ => exact absurd rfl hb) (by show 512 + 0 = q.val; have := q.isLt; omega)

/-- Entry `(n, q)` of `[x | y]` (256 columns each) is entry `q` of the joined row. -/
theorem concat2_apply {R : ℕ} (x y : (⟨2, ![R, 256]⟩ : Shape).Idx → EReal)
    (h : Shape.Concatenates [(⟨2, ![R, 256]⟩ : Shape), ⟨2, ![R, 256]⟩] ⟨2, ![R, 512]⟩ 1) (n : Fin R) (q : Fin 512) :
    concatenate ⟨2, ![R, 512]⟩ 1 [⟨⟨2, ![R, 256]⟩, x⟩, ⟨⟨2, ![R, 256]⟩, y⟩] h (ix2 n q)
      = join2 (rowOf x n) (rowOf y n) q := by
  unfold join2 rowOf
  by_cases h1 : q.val < 256
  · rw [dif_pos h1]
    exact concatenate_apply_piece 1 [⟨⟨2, ![R, 256]⟩, x⟩, ⟨⟨2, ![R, 256]⟩, y⟩] h (ix2 n q) 0 (by show (0 : ℕ) < 2; omega) _ x rfl rfl 0 rfl (ix2 n ⟨q.val, h1⟩)
      (fun b hb => by match b with | ⟨0, _⟩ => rfl | ⟨1, _⟩ => exact absurd rfl hb) (by show 0 + q.val = q.val; omega)
  · rw [dif_neg h1]
    exact concatenate_apply_piece 1 [⟨⟨2, ![R, 256]⟩, x⟩, ⟨⟨2, ![R, 256]⟩, y⟩] h (ix2 n q) 1 (by show (1 : ℕ) < 2; omega) _ y rfl rfl 256 rfl (ix2 n ⟨q.val - 256, by have := q.isLt; omega⟩)
      (fun b hb => by match b with | ⟨0, _⟩ => rfl | ⟨1, _⟩ => exact absurd rfl hb) (by show 256 + (q.val - 256) = q.val; omega)

end Cert.Chain

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.LibRowBroadcast.lean ====
/-
  A `1 × b` row spread over the rows of an `a × b` matrix read at an entry: entry `(p, q)` of the spread matrix is
  entry `(0, q)` of the row.
-/
import Idealize.ShloMosaic.Lib.Pipeline.Value
import Idealize.ShloMosaic.Lib.ValueIdx

noncomputable section

namespace Cert.RowBroadcast

open Idealize.ShloMosaic Idealize.ShloMosaic.ValueIdx

/-- A `[1, b]` row broadcast to `[a, b]` reads, at `(p, q)`, the row at `q`: the unit axis is read at 0, the other
    axis at its own coordinate. -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.RowBroadcast

end
-- ==== Proof.LibVecRow.lean ====
/-
  A vector of `b` entries stored as a `1 × b` row (a reshape that adds a leading unit axis) read at an entry:
  entry `(u, q)` of the row is entry `q` of the vector.
-/
import Idealize.ShloMosaic.Lib.Pipeline.Value
import Idealize.ShloMosaic.Lib.ValueIdx

noncomputable section

namespace Cert.VecRow

open Idealize.ShloMosaic Idealize.ShloMosaic.ValueIdx

/-- A `[b]` vector reshaped to a `[1, b]` row reads, at `(u, q)`, the vector at `q`: both have row-major position `q`. -/
theorem row_of_vec_apply {α : Type} {b : ℕ} (h : (⟨1, ![b]⟩ : Shape).ShapeCasts ⟨2, ![1, b]⟩) (x : (⟨1, ![b]⟩ : Shape).Idx → α)
    (u : Fin 1) (q : Fin b) : shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have := u.isLt
  have hu : u.val = 0 := by omega
  rw [hu]; omega

end Cert.VecRow

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.KernelRows.lean ====
/-
  The kernels' arithmetic, read at an entry. Each kernel body computes its output block from the blocks it loads by one
  pure expression; at an entry `(p, c)` of the block that expression is a function of row `p` of each loaded block of
  nodes and of the weights: the edge attribute row, the shift of position, the node's new feature row.
-/
import proofs.«170481_j40836549050449_1_alg».proof.Proof.Gen.KernelIdeal.Skeleton
import proofs.«170481_j40836549050449_1_alg».proof.Proof.Joins
import proofs.«170481_j40836549050449_1_alg».proof.Proof.LibMatmul
import proofs.«170481_j40836549050449_1_alg».proof.Proof.LibRowBroadcast
import proofs.«170481_j40836549050449_1_alg».proof.Proof.LibVecRow
import proofs.«170481_j40836549050449_1_alg».proof.Proof.LibColumns

noncomputable section

namespace Cert.Chain

open Idealize.ShloMosaic Idealize.ShloMosaic.ValueIdx Cert.KernelIdeal Cert.KernelIdeal.Gen

/-- Where the operands' indices come from in the `[2048, 513] × [513, 256]` product: the left operand's row is the
    result's row, its column the contraction position; the right operand's row is the contraction position, its column
    the result's column. -/
private theorem e1_l0 (i : S2048x256.Idx) (q : dot_S2048x513_S513x256_S2048x256_1_0_0_1_n_n.contr.Idx) :
    (dot_S2048x513_S513x256_S2048x256_1_0_0_1_n_n.lhsIdx i q 0).val = (i 0).val := by
  unfold DotDims.lhsIdx
  rw [dif_neg (show ¬(0 : Fin S2048x513.rank) ∈ dot_S2048x513_S513x256_S2048x256_1_0_0_1_n_n.lhsBatch by decide), dif_pos (show (0 : Fin S2048x513.rank) ∈ dot_S2048x513_S513x256_S2048x256_1_0_0_1_n_n.lhsNonContracting by decide)]
  rfl
private theorem e1_l1 (i : S2048x256.Idx) (q : dot_S2048x513_S513x256_S2048x256_1_0_0_1_n_n.contr.Idx) :
    (dot_S2048x513_S513x256_S2048x256_1_0_0_1_n_n.lhsIdx i q 1).val = (q ⟨0, by decide⟩).val :=
  dot_S2048x513_S513x256_S2048x256_1_0_0_1_n_n.lhsIdx_val_of_single rfl i q
private theorem e1_r0 (i : S2048x256.Idx) (q : dot_S2048x513_S513x256_S2048x256_1_0_0_1_n_n.contr.Idx) :
    (dot_S2048x513_S513x256_S2048x256_1_0_0_1_n_n.rhsIdx i q 0).val = (q ⟨0, by decide⟩).val :=
  dot_S2048x513_S513x256_S2048x256_1_0_0_1_n_n.rhsIdx_val_of_single rfl i q
private theorem e1_r1 (i : S2048x256.Idx) (q : dot_S2048x513_S513x256_S2048x256_1_0_0_1_n_n.contr.Idx) :
    (dot_S2048x513_S513x256_S2048x256_1_0_0_1_n_n.rhsIdx i q 1).val = (i 1).val := by
  unfold DotDims.rhsIdx
  rw [dif_neg (show ¬(1 : Fin S513x256.rank) ∈ dot_S2048x513_S513x256_S2048x256_1_0_0_1_n_n.rhsBatch by decide), dif_pos (show (1 : Fin S513x256.rank) ∈ dot_S2048x513_S513x256_S2048x256_1_0_0_1_n_n.rhsNonContracting by decide)]
  rfl
/-- Entry `(p, c)` of that product into the zero accumulator is `∑ k, lhs (p, k) * rhs (k, c)`. -/
private theorem e1_mm {φ₁ φ₂ : FTy} (lhs : FVec Ideal S2048x513 φ₁) (rhs : FVec Ideal S513x256 φ₂) (p : Fin 2048) (c : Fin 256) :
    matmul dot_S2048x513_S513x256_S2048x256_1_0_0_1_n_n none lhs rhs (constant S2048x256 .f32 0x00000000#32) (ix2 p c)
      = ∑ k : Fin 513, lhs (ix2 p k) * rhs (ix2 k c) :=
  Cert.PlainDot.matmul_zero_apply dot_S2048x513_S513x256_S2048x256_1_0_0_1_n_n none rfl rfl
    (e1_l0) (e1_l1) (e1_r0) (e1_r1) lhs rhs p c

/-- Where the operands' indices come from in the `[2048, 256] × [256, 256]` product: the left operand's row is the
    result's row, its column the contraction position; the right operand's row is the contraction position, its column
    the result's column. -/
private theorem sq_l0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
private theorem sq_l1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
private theorem sq_r0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
private theorem sq_r1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl
/-- Entry `(p, c)` of that product into the zero accumulator is `∑ k, lhs (p, k) * rhs (k, c)`. -/
private theorem sq_mm {φ₁ φ₂ : FTy} (lhs : FVec Ideal S2048x256 φ₁) (rhs : FVec Ideal S256x256 φ₂) (p : Fin 2048) (c : Fin 256) :
    matmul dot_S2048x256_S256x256_S2048x256_1_0_0_1_n_n none lhs rhs (constant S2048x256 .f32 0x00000000#32) (ix2 p c)
      = ∑ k : Fin 256, lhs (ix2 p k) * rhs (ix2 k c) :=
  Cert.PlainDot.matmul_zero_apply dot_S2048x256_S256x256_S2048x256_1_0_0_1_n_n none rfl rfl
    (sq_l0) (sq_l1) (sq_r0) (sq_r1) lhs rhs p c

/-- Where the operands' indices come from in the `[2048, 256] × [256, 3]` product: the left operand's row is the
    result's row, its column the contraction position; the right operand's row is the contraction position, its column
    the result's column. -/
private theorem s3_l0 (i : S2048x3.Idx) (q : dot_S2048x256_S256x3_S2048x3_1_0_0_1_n_n.contr.Idx) :
    (dot_S2048x256_S256x3_S2048x3_1_0_0_1_n_n.lhsIdx i q 0).val = (i 0).val := by
  unfold DotDims.lhsIdx
  rw [dif_neg (show ¬(0 : Fin S2048x256.rank) ∈ dot_S2048x256_S256x3_S2048x3_1_0_0_1_n_n.lhsBatch by decide), dif_pos (show (0 : Fin S2048x256.rank) ∈ dot_S2048x256_S256x3_S2048x3_1_0_0_1_n_n.lhsNonContracting by decide)]
  rfl
private theorem s3_l1 (i : S2048x3.Idx) (q : dot_S2048x256_S256x3_S2048x3_1_0_0_1_n_n.contr.Idx) :
    (dot_S2048x256_S256x3_S2048x3_1_0_0_1_n_n.lhsIdx i q 1).val = (q ⟨0, by decide⟩).val :=
  dot_S2048x256_S256x3_S2048x3_1_0_0_1_n_n.lhsIdx_val_of_single rfl i q
private theorem s3_r0 (i : S2048x3.Idx) (q : dot_S2048x256_S256x3_S2048x3_1_0_0_1_n_n.contr.Idx) :
    (dot_S2048x256_S256x3_S2048x3_1_0_0_1_n_n.rhsIdx i q 0).val = (q ⟨0, by decide⟩).val :=
  dot_S2048x256_S256x3_S2048x3_1_0_0_1_n_n.rhsIdx_val_of_single rfl i q
private theorem s3_r1 (i : S2048x3.Idx) (q : dot_S2048x256_S256x3_S2048x3_1_0_0_1_n_n.contr.Idx) :
    (dot_S2048x256_S256x3_S2048x3_1_0_0_1_n_n.rhsIdx i q 1).val = (i 1).val := by
  unfold DotDims.rhsIdx
  rw [dif_neg (show ¬(1 : Fin S256x3.rank) ∈ dot_S2048x256_S256x3_S2048x3_1_0_0_1_n_n.rhsBatch by decide), dif_pos (show (1 : Fin S256x3.rank) ∈ dot_S2048x256_S256x3_S2048x3_1_0_0_1_n_n.rhsNonContracting by decide)]
  rfl
/-- Entry `(p, c)` of that product into the zero accumulator is `∑ k, lhs (p, k) * rhs (k, c)`. -/
private theorem s3_mm {φ₁ φ₂ : FTy} (lhs : FVec Ideal S2048x256 φ₁) (rhs : FVec Ideal S256x3 φ₂) (p : Fin 2048) (c : Fin 3) :
    matmul dot_S2048x256_S256x3_S2048x3_1_0_0_1_n_n none lhs rhs (constant S2048x3 .f32 0x00000000#32) (ix2 p c)
      = ∑ k : Fin 256, lhs (ix2 p k) * rhs (ix2 k c) :=
  Cert.PlainDot.matmul_zero_apply dot_S2048x256_S256x3_S2048x3_1_0_0_1_n_n none rfl rfl
    (s3_l0) (s3_l1) (s3_r0) (s3_r1) lhs rhs p c

/-- Where the operands' indices come from in the `[2048, 512] × [512, 256]` product: the left operand's row is the
    result's row, its column the contraction position; the right operand's row is the contraction position, its column
    the result's column. -/
private theorem n1_l0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
private theorem n1_l1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
private theorem n1_r0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
private theorem n1_r1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl
/-- Entry `(p, c)` of that product into the zero accumulator is `∑ k, lhs (p, k) * rhs (k, c)`. -/
private theorem n1_mm {φ₁ φ₂ : FTy} (lhs : FVec Ideal S2048x512 φ₁) (rhs : FVec Ideal S512x256 φ₂) (p : Fin 2048) (c : Fin 256) :
    matmul dot_S2048x512_S512x256_S2048x256_1_0_0_1_n_n none lhs rhs (constant S2048x256 .f32 0x00000000#32) (ix2 p c)
      = ∑ k : Fin 512, lhs (ix2 p k) * rhs (ix2 k c) :=
  Cert.PlainDot.matmul_zero_apply dot_S2048x512_S512x256_S2048x256_1_0_0_1_n_n none rfl rfl
    (n1_l0) (n1_l1) (n1_r0) (n1_r1) lhs rhs p c

/-- A vector of 256 entries laid out as a row and spread over 2048 rows reads, at `(p, c)`, the vector at `c`. -/
private theorem bias_apply (b : Vec Ideal S256 .f32) (p : Fin 2048) (c : Fin 256) :
    broadcastTo S2048x256 (shapeCast S1x256 b shapeCasts_S256_S1x256) broadcasts_S1x256_S2048x256 (ix2 p c) = b (ix1 c) :=
  (Cert.RowBroadcast.broadcastTo_1b_ab_apply _ _ p c).trans (Cert.VecRow.row_of_vec_apply _ b 0 c)

/-- The sum along a row of a `[2048, 3]` block, read at row `p`: the sum of the row's three entries. -/
private theorem rowsum_apply (src : FVec Ideal S2048x3 .f32) (hacc : (0x00000000#32 : BitVec 32) = 0x00000000#32) (p : Fin 2048) :
    multiReduction (F := Ideal) .add [1] S2048 src 0x00000000#32 reduces_S2048x3_S2048 (.inl rfl) hacc (ix1 p)
      = ∑ k : Fin 3, src (ix2 p k) :=
  (Ideal.multiReduction_add_single src 0x00000000#32 reduces_S2048x3_S2048 (.inl rfl) hacc (ix1 p)).trans
    (Finset.sum_congr rfl fun k _ => congrArg src (Cert.Columns.lift_row reduces_S2048x3_S2048 p k))

/-- The distance column at row `p`: the Euclidean distance between row `p` of the two blocks of positions. -/
private theorem dist_col (x3 x4 : Vec Ideal S2048x3 .f32) (hacc : (0x00000000#32 : BitVec 32) = 0x00000000#32) (p : Fin 2048) :
    sqrt (F := Ideal) (shapeCast S2048x1 (multiReduction (F := Ideal) .add [1] S2048
        (mulf (subf (shapeCast S2048x3 x4 shapeCasts_S2048x3_S2048x3) x3) (subf (shapeCast S2048x3 x4 shapeCasts_S2048x3_S2048x3) x3))
        0x00000000#32 reduces_S2048x3_S2048 (.inl rfl) hacc) shapeCasts_S2048_S2048x1) (ix2 p (0 : Fin 1))
      = dist3 (rowOf x3 p) (rowOf x4 p) := by
  show Ideal.sqrt _ = Ideal.sqrt _
  refine congrArg Ideal.sqrt ?_
  refine (Cert.Columns.shapeCast_a_a1_apply _ _ p 0).trans ?_
  refine (rowsum_apply _ _ p).trans ?_
  refine Finset.sum_congr rfl fun k _ => ?_
  rw [shapeCast_self]
  rfl

/-- The edge kernel's first stored value at `(p, c)`: the attribute row of the edge whose end nodes' rows are row `p` of
    the loaded blocks (`x0`, `x1` features of the left and right end, `x3`, `x4` their positions). -/
theorem edge_payload (x0 x1 : Vec Ideal S2048x256 .f32) (x3 x4 : Vec Ideal S2048x3 .f32) (w1 : Vec Ideal S513x256 .f32)
    (b1 : Vec Ideal S256 .f32) (w2 : Vec Ideal S256x256 .f32) (b2 : Vec Ideal S256 .f32) (p : Fin 2048) (c : Fin 256) :
    k0_pay2 (F := Ideal) x0 x1 x3 x4 w1 b1 w2 b2 (ix2 p c)
      = edgeRow (rowOf x0 p) (rowOf x1 p) (rowOf x3 p) (rowOf x4 p) (matOf w1) (vecOf b1) (matOf w2) (vecOf b2) c := by
  unfold k0_pay2
  refine (addf_apply _ _ _).trans ?_
  rw [bias_apply]
  refine congrArg (· + b2 (ix1 c)) ?_
  refine (sq_mm _ _ p c).trans ?_
  refine Finset.sum_congr rfl fun k _ => ?_
  refine congrArg (· * w2 (ix2 k c)) ?_
  show (fun z : EReal => z * Ideal.logistic z) _ = silu _
  refine congrArg (fun z : EReal => z * Ideal.logistic z) ?_
  refine (addf_apply _ _ _).trans ?_
  rw [bias_apply]
  refine congrArg (· + b1 (ix1 k)) ?_
  refine (e1_mm _ _ p k).trans ?_
  refine Finset.sum_congr rfl fun q _ => ?_
  refine congrArg (· * w1 (ix2 q k)) ?_
  refine (truncf_apply (φ := .f32) (ψ := .bf16) _ bitsLt_bf16_f32 _).trans ?_
  refine (concat3_apply x0 _ _ _ p q).trans ?_
  rw [shapeCast_self, dist_col]

/-- The edge kernel's second stored value at `(p, d)`: the shift of position computed from that attribute row. -/
theorem shift_payload (x0 x1 : Vec Ideal S2048x256 .f32) (x3 x4 : Vec Ideal S2048x3 .f32) (w1 : Vec Ideal S513x256 .f32)
    (b1 : Vec Ideal S256 .f32) (w2 : Vec Ideal S256x256 .f32) (b2 : Vec Ideal S256 .f32)
    (u1 : Vec Ideal S256x256 .f32) (c1 : Vec Ideal S256 .f32) (u2 : Vec Ideal S256x3 .f32) (p : Fin 2048) (d : Fin 3) :
    k0_pay1 (F := Ideal) (k0_pay3 (F := Ideal) x0 x1 x3 x4 w1 b1 w2 b2 u1) c1 u2 (ix2 p d)
      = shiftRow (edgeRow (rowOf x0 p) (rowOf x1 p) (rowOf x3 p) (rowOf x4 p) (matOf w1) (vecOf b1) (matOf w2) (vecOf b2))
          (matOf u1) (vecOf c1) (matOf u2) d := by
  unfold k0_pay1
  refine (s3_mm _ _ p d).trans ?_
  refine Finset.sum_congr rfl fun k _ => ?_
  refine congrArg (· * u2 (ix2 k d)) ?_
  show (fun z : EReal => z * Ideal.logistic z) _ = silu _
  refine congrArg (fun z : EReal => z * Ideal.logistic z) ?_
  refine (addf_apply _ _ _).trans ?_
  rw [bias_apply]
  refine congrArg (· + c1 (ix1 k)) ?_
  unfold k0_pay3
  refine (sq_mm _ _ p k).trans ?_
  refine Finset.sum_congr rfl fun j _ => ?_
  refine congrArg (· * u1 (ix2 j k)) ?_
  exact edge_payload x0 x1 x3 x4 w1 b1 w2 b2 p j

/-- The node kernel's stored value at `(p, c)`: the new feature row of the node whose feature row and update row are
    row `p` of the loaded blocks. -/
theorem node_payload (x0 x1 : Vec Ideal S2048x256 .f32) (w1 : Vec Ideal S512x256 .f32) (b1 : Vec Ideal S256 .f32)
    (w2 : Vec Ideal S256x256 .f32) (b2 : Vec Ideal S256 .f32) (p : Fin 2048) (c : Fin 256) :
    k1_pay1 (F := Ideal) x0 x1 w1 b1 w2 b2 (ix2 p c)
      = nodeRow (rowOf x0 p) (rowOf x1 p) (matOf w1) (vecOf b1) (matOf w2) (vecOf b2) c := by
  unfold k1_pay1
  refine (addf_apply _ _ _).trans ?_
  rw [bias_apply]
  refine congrArg (· + b2 (ix1 c)) ?_
  refine (sq_mm _ _ p c).trans ?_
  refine Finset.sum_congr rfl fun k _ => ?_
  refine congrArg (· * w2 (ix2 k c)) ?_
  show (fun z : EReal => z * Ideal.logistic z) _ = silu _
  refine congrArg (fun z : EReal => z * Ideal.logistic z) ?_
  refine (addf_apply _ _ _).trans ?_
  rw [bias_apply]
  refine congrArg (· + b1 (ix1 k)) ?_
  refine (n1_mm _ _ p k).trans ?_
  refine Finset.sum_congr rfl fun q _ => ?_
  refine congrArg (· * w1 (ix2 q k)) ?_
  refine (truncf_apply (φ := .f32) (ψ := .bf16) _ bitsLt_bf16_f32 _).trans ?_
  rw [shapeCast_self]
  exact concat2_apply x0 x1 _ p q

end Cert.Chain

end
-- ==== Proof.Blocks0.lean ====
/-
  The edge kernel's launch, read whole: after its 64 blocks of 2048 rows have been written back, its two output arrays
  hold, row by row, the edge attributes and the shifts of position computed from the rows of the four arrays of nodes it
  was launched on (the weights are read whole at every block).
-/
import proofs.«170481_j40836549050449_1_alg».proof.Proof.Gen.KernelIdeal.Frame
import proofs.«170481_j40836549050449_1_alg».proof.Proof.KernelRows
import Idealize.ShloMosaic.Lib.Pipeline.Value

set_option maxRecDepth 16384

noncomputable section

namespace Cert.KernelIdeal.Whole

open Cert.KernelIdeal Cert.KernelIdeal.Gen Cert.Chain
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps over the grid: a block of nodes or edges at point `t` is block `t` along the rows; a weight's block is
    the whole array at every point. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

/-- Window 0's block at point `t`: entry `(p, k)` is entry `(2048 t + p, k)` of its array. -/
theorem iblk0_0_apply (c : Dev nD) (t : Fin cfg0.N) (p : Fin 2048) (k : Fin 256) (n : Fin 131072) (hn : n.val = 2048 * t.val + p.val) :
    (iblk0 V c 0 t : Vec Ideal S2048x256 .f32) (ix2 p k) = (V c main_arg0 : S131072x256.Idx → EReal) (ix2 n k) := by
  unfold iblk0
  rw [View.read_apply]
  show V c main_arg0 _ = V c main_arg0 _
  congr 1
  funext a
  apply Fin.ext
  match a with
  | ⟨0, _⟩ => show win0_0.index t (0 : Fin 2) * 2048 + 1 * p.val = n.val; rw [(idx0 t).1, hn]; omega
  | ⟨1, _⟩ => show win0_0.index t (1 : Fin 2) * 256 + 1 * k.val = k.val; rw [(idx0 t).2.1]; omega

theorem row0_0 (c : Dev nD) (t : Fin cfg0.N) (p : Fin 2048) (n : Fin 131072) (hn : n.val = 2048 * t.val + p.val) :
    rowOf (iblk0 V c 0 t : Vec Ideal S2048x256 .f32) p = rowOf (V c main_arg0 : S131072x256.Idx → EReal) n :=
  funext fun k => iblk0_0_apply V c t p k n hn

/-- Window 1's block at point `t`: entry `(p, k)` is entry `(2048 t + p, k)` of its array. -/
theorem iblk0_1_apply (c : Dev nD) (t : Fin cfg0.N) (p : Fin 2048) (k : Fin 256) (n : Fin 131072) (hn : n.val = 2048 * t.val + p.val) :
    (iblk0 V c 1 t : Vec Ideal S2048x256 .f32) (ix2 p k) = (V c main_v3 : S131072x256.Idx → EReal) (ix2 n k) := by
  unfold iblk0
  rw [View.read_apply]
  show V c main_v3 _ = V c main_v3 _
  congr 1
  funext a
  apply Fin.ext
  match a with
  | ⟨0, _⟩ => show win0_1.index t (0 : Fin 2) * 2048 + 1 * p.val = n.val; rw [(idx0 t).2.2.1, hn]; omega
  | ⟨1, _⟩ => show win0_1.index t (1 : Fin 2) * 256 + 1 * k.val = k.val; rw [(idx0 t).2.2.2.1]; omega

theorem row0_1 (c : Dev nD) (t : Fin cfg0.N) (p : Fin 2048) (n : Fin 131072) (hn : n.val = 2048 * t.val + p.val) :
    rowOf (iblk0 V c 1 t : Vec Ideal S2048x256 .f32) p = rowOf (V c main_v3 : S131072x256.Idx → EReal) n :=
  funext fun k => iblk0_1_apply V c t p k n hn

/-- Window 2's block at point `t`: entry `(p, k)` is entry `(2048 t + p, k)` of its array. -/
theorem iblk0_2_apply (c : Dev nD) (t : Fin cfg0.N) (p : Fin 2048) (k : Fin 3) (n : Fin 131072) (hn : n.val = 2048 * t.val + p.val) :
    (iblk0 V c 2 t : Vec Ideal S2048x3 .f32) (ix2 p k) = (V c main_arg1 : S131072x3.Idx → EReal) (ix2 n k) := by
  unfold iblk0
  rw [View.read_apply]
  show V c main_arg1 _ = V c main_arg1 _
  congr 1
  funext a
  apply Fin.ext
  match a with
  | ⟨0, _⟩ => show win0_2.index t (0 : Fin 2) * 2048 + 1 * p.val = n.val; rw [(idx0 t).2.2.2.2.1, hn]; omega
  | ⟨1, _⟩ => show win0_2.index t (1 : Fin 2) * 3 + 1 * k.val = k.val; rw [(idx0 t).2.2.2.2.2.1]; omega

theorem row0_2 (c : Dev nD) (t : Fin cfg0.N) (p : Fin 2048) (n : Fin 131072) (hn : n.val = 2048 * t.val + p.val) :
    rowOf (iblk0 V c 2 t : Vec Ideal S2048x3 .f32) p = rowOf (V c main_arg1 : S131072x3.Idx → EReal) n :=
  funext fun k => iblk0_2_apply V c t p k n hn

/-- Window 3's block at point `t`: entry `(p, k)` is entry `(2048 t + p, k)` of its array. -/
theorem iblk0_3_apply (c : Dev nD) (t : Fin cfg0.N) (p : Fin 2048) (k : Fin 3) (n : Fin 131072) (hn : n.val = 2048 * t.val + p.val) :
    (iblk0 V c 3 t : Vec Ideal S2048x3 .f32) (ix2 p k) = (V c main_v5 : S131072x3.Idx → EReal) (ix2 n k) := by
  unfold iblk0
  rw [View.read_apply]
  show V c main_v5 _ = V c main_v5 _
  congr 1
  funext a
  apply Fin.ext
  match a with
  | ⟨0, _⟩ => show win0_3.index t (0 : Fin 2) * 2048 + 1 * p.val = n.val; rw [(idx0 t).2.2.2.2.2.2.1, hn]; omega
  | ⟨1, _⟩ => show win0_3.index t (1 : Fin 2) * 3 + 1 * k.val = k.val; rw [(idx0 t).2.2.2.2.2.2.2.1]; omega

theorem row0_3 (c : Dev nD) (t : Fin cfg0.N) (p : Fin 2048) (n : Fin 131072) (hn : n.val = 2048 * t.val + p.val) :
    rowOf (iblk0 V c 3 t : Vec Ideal S2048x3 .f32) p = rowOf (V c main_v5 : S131072x3.Idx → EReal) n :=
  funext fun k => iblk0_3_apply V c t p k n hn

/-- Window 4's block at every point is its whole array. -/
theorem iblk0_4_eq (c : Dev nD) (t : Fin cfg0.N) :
    (iblk0 V c 4 t : Vec Ideal S513x256 .f32) = (V c main_arg2 : S513x256.Idx → EReal) := by
  funext y
  unfold iblk0
  rw [View.read_apply]
  show V c main_arg2 _ = V c main_arg2 _
  congr 1
  funext a
  apply Fin.ext
  match a with
  | ⟨0, _⟩ => show win0_4.index t (0 : Fin 2) * 513 + 1 * (y 0).val = (y 0).val; rw [(idx0 t).2.2.2.2.2.2.2.2.1]; omega
  | ⟨1, _⟩ => show win0_4.index t (1 : Fin 2) * 256 + 1 * (y 1).val = (y 1).val; rw [(idx0 t).2.2.2.2.2.2.2.2.2.1]; omega

/-- Window 5's block at every point is its whole array. -/
theorem iblk0_5_eq (c : Dev nD) (t : Fin cfg0.N) :
    (iblk0 V c 5 t : Vec Ideal S256 .f32) = (V c main_arg3 : S256.Idx → EReal) := by
  funext y
  unfold iblk0
  rw [View.read_apply]
  show V c main_arg3 _ = V c main_arg3 _
  congr 1
  funext a
  apply Fin.ext
  match a with
  | ⟨0, _⟩ => show win0_5.index t (0 : Fin 1) * 256 + 1 * (y 0).val = (y 0).val; rw [(idx0 t).2.2.2.2.2.2.2.2.2.2.1]; omega

/-- Window 6's block at every point is its whole array. -/
theorem iblk0_6_eq (c : Dev nD) (t : Fin cfg0.N) :
    (iblk0 V c 6 t : Vec Ideal S256x256 .f32) = (V c main_arg4 : S256x256.Idx → EReal) := by
  funext y
  unfold iblk0
  rw [View.read_apply]
  show V c main_arg4 _ = V c main_arg4 _
  congr 1
  funext a
  apply Fin.ext
  match a with
  | ⟨0, _⟩ => show win0_6.index t (0 : Fin 2) * 256 + 1 * (y 0).val = (y 0).val; rw [(idx0 t).2.2.2.2.2.2.2.2.2.2.2.1]; omega
  | ⟨1, _⟩ => show win0_6.index t (1 : Fin 2) * 256 + 1 * (y 1).val = (y 1).val; rw [(idx0 t).2.2.2.2.2.2.2.2.2.2.2.2.1]; omega

/-- Window 7's block at every point is its whole array. -/
theorem iblk0_7_eq (c : Dev nD) (t : Fin cfg0.N) :
    (iblk0 V c 7 t : Vec Ideal S256 .f32) = (V c main_arg5 : S256.Idx → EReal) := by
  funext y
  unfold iblk0
  rw [View.read_apply]
  show V c main_arg5 _ = V c main_arg5 _
  congr 1
  funext a
  apply Fin.ext
  match a with
  | ⟨0, _⟩ => show win0_7.index t (0 : Fin 1) * 256 + 1 * (y 0).val = (y 0).val; rw [(idx0 t).2.2.2.2.2.2.2.2.2.2.2.2.2.1]; omega

/-- Window 8's block at every point is its whole array. -/
theorem iblk0_8_eq (c : Dev nD) (t : Fin cfg0.N) :
    (iblk0 V c 8 t : Vec Ideal S256x256 .f32) = (V c main_arg6 : S256x256.Idx → EReal) := by
  funext y
  unfold iblk0
  rw [View.read_apply]
  show V c main_arg6 _ = V c main_arg6 _
  congr 1
  funext a
  apply Fin.ext
  match a with
  | ⟨0, _⟩ => show win0_8.index t (0 : Fin 2) * 256 + 1 * (y 0).val = (y 0).val; rw [(idx0 t).2.2.2.2.2.2.2.2.2.2.2.2.2.2.1]; omega
  | ⟨1, _⟩ => show win0_8.index t (1 : Fin 2) * 256 + 1 * (y 1).val = (y 1).val; rw [(idx0 t).2.2.2.2.2.2.2.2.2.2.2.2.2.2.2.1]; omega

/-- Window 9's block at every point is its whole array. -/
theorem iblk0_9_eq (c : Dev nD) (t : Fin cfg0.N) :
    (iblk0 V c 9 t : Vec Ideal S256 .f32) = (V c main_arg7 : S256.Idx → EReal) := by
  funext y
  unfold iblk0
  rw [View.read_apply]
  show V c main_arg7 _ = V c main_arg7 _
  congr 1
  funext a
  apply Fin.ext
  match a with
  | ⟨0, _⟩ => show win0_9.index t (0 : Fin 1) * 256 + 1 * (y 0).val = (y 0).val; rw [(idx0 t).2.2.2.2.2.2.2.2.2.2.2.2.2.2.2.2.1]; omega

/-- Window 10's block at every point is its whole array. -/
theorem iblk0_10_eq (c : Dev nD) (t : Fin cfg0.N) :
    (iblk0 V c 10 t : Vec Ideal S256x3 .f32) = (V c main_arg8 : S256x3.Idx → EReal) := by
  funext y
  unfold iblk0
  rw [View.read_apply]
  show V c main_arg8 _ = V c main_arg8 _
  congr 1
  funext a
  apply Fin.ext
  match a with
  | ⟨0, _⟩ => show win0_10.index t (0 : Fin 2) * 256 + 1 * (y 0).val = (y 0).val; rw [(idx0 t).2.2.2.2.2.2.2.2.2.2.2.2.2.2.2.2.2.1]; omega
  | ⟨1, _⟩ => show win0_10.index t (1 : Fin 2) * 3 + 1 * (y 1).val = (y 1).val; rw [(idx0 t).2.2.2.2.2.2.2.2.2.2.2.2.2.2.2.2.2.2.1]; omega

/-- What the body leaves in the first output's buffer, at an entry: the edge attribute row of the blocks' row `p`. -/
theorem out0_11_apply (x0 x1 : Vec Ideal S2048x256 .f32) (x2 x3 : Vec Ideal S2048x3 .f32) (x4 : Vec Ideal S513x256 .f32)
    (x5 : Vec Ideal S256 .f32) (x6 : Vec Ideal S256x256 .f32) (x7 : Vec Ideal S256 .f32) (x8 : Vec Ideal S256x256 .f32)
    (x9 : Vec Ideal S256 .f32) (x10 : Vec Ideal S256x3 .f32) (p : Fin 2048) (q : Fin 256) :
    out0_11 (F := Ideal) x0 x1 x2 x3 x4 x5 x6 x7 x8 x9 x10 (ix2 p q)
      = edgeRow (rowOf x0 p) (rowOf x1 p) (rowOf x2 p) (rowOf x3 p) (matOf x4) (vecOf x5) (matOf x6) (vecOf x7) q := by
  unfold out0_11
  rw [View.canon_unit_zero hz2]
  simp only [View.ld_unit_zero (S := S2048x256) hz2, View.ld_unit_zero (S := S2048x3) hz2, View.ld_unit_zero (S := S513x256) hz2,
    View.ld_unit_zero (S := S256x256) hz2, View.ld_unit_zero (S := S256) hz1]
  exact edge_payload x0 x1 x2 x3 x4 x5 x6 x7 p q

/-- What the body leaves in the second output's buffer, at an entry: the shift of position of the blocks' row `p`. -/
theorem out0_12_apply (x0 x1 : Vec Ideal S2048x256 .f32) (x2 x3 : Vec Ideal S2048x3 .f32) (x4 : Vec Ideal S513x256 .f32)
    (x5 : Vec Ideal S256 .f32) (x6 : Vec Ideal S256x256 .f32) (x7 : Vec Ideal S256 .f32) (x8 : Vec Ideal S256x256 .f32)
    (x9 : Vec Ideal S256 .f32) (x10 : Vec Ideal S256x3 .f32) (p : Fin 2048) (d : Fin 3) :
    out0_12 (F := Ideal) x0 x1 x2 x3 x4 x5 x6 x7 x8 x9 x10 (ix2 p d)
      = shiftRow (edgeRow (rowOf x0 p) (rowOf x1 p) (rowOf x2 p) (rowOf x3 p) (matOf x4) (vecOf x5) (matOf x6) (vecOf x7))
          (matOf x8) (vecOf x9) (matOf x10) d := by
  unfold out0_12
  rw [View.canon_unit_zero hz2]
  simp only [View.ld_unit_zero (S := S2048x256) hz2, View.ld_unit_zero (S := S2048x3) hz2, View.ld_unit_zero (S := S513x256) hz2,
    View.ld_unit_zero (S := S256x256) hz2, View.ld_unit_zero (S := S256x3) hz2, View.ld_unit_zero (S := S256) hz1]
  exact shift_payload x0 x1 x2 x3 x4 x5 x6 x7 x8 x9 x10 p d

/-- The edge attributes as one function of the arrays the launch finds. -/
abbrev edges (c : Dev nD) : S131072x256.Idx → EReal :=
  edgeArr (V c main_arg0) (V c main_v3) (V c main_arg1) (V c main_v5) (V c main_arg2) (V c main_arg3) (V c main_arg4) (V c main_arg5)

/-- The shifts of position as one function of the arrays the launch finds. -/
abbrev shifts (c : Dev nD) : S131072x3.Idx → EReal :=
  shiftArr (V c main_arg0) (V c main_v3) (V c main_arg1) (V c main_v5) (V c main_arg2) (V c main_arg3) (V c main_arg4) (V c main_arg5)
    (V c main_arg6) (V c main_arg7) (V c main_arg8)

/-- Point `t` writes back block `t` of the edge attributes. -/
theorem flushed0_11_eq (c : Dev nD) (t : Fin cfg0.N) :
    (dat0 V c).flushed 11 t = ((cfg0.win 11).blk t).view.read (Elt Ideal) (edges V c) := by
  have hN : t.val < 64 := lt_of_lt_of_eq t.isLt (show cfg0.N = 64 from N_0)
  show (cfg0.win 11).cut (grid0.coords t) ((dat0 V c).after 11 t) = _
  rw [after0_11]
  funext y
  obtain ⟨p, q, rfl⟩ : ∃ (p : Fin 2048) (q : Fin 256), y = ix2 p q := ⟨y 0, y 1, eq_ix2 y⟩
  show out0_11 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q)
    = edges V c (((cfg0.win 11).blk t).view.emb (ix2 p q))
  refine (out0_11_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  obtain ⟨n, hn⟩ : ∃ n : Fin 131072, n.val = 2048 * t.val + p.val := ⟨⟨2048 * t.val + p.val, by have := p.isLt; omega⟩, rfl⟩
  have hr : rowAt (((cfg0.win 11).blk t).view.emb (ix2 p q) : S131072x256.Idx) = n :=
    Fin.ext (by show win0_11.index t (0 : Fin 2) * 2048 + 1 * p.val = n.val; rw [(idx0 t).2.2.2.2.2.2.2.2.2.2.2.2.2.2.2.2.2.2.2.1, hn]; omega)
  have hc : colAt (((cfg0.win 11).blk t).view.emb (ix2 p q) : S131072x256.Idx) = q :=
    Fin.ext (by show win0_11.index t (1 : Fin 2) * 256 + 1 * q.val = q.val; rw [(idx0 t).2.2.2.2.2.2.2.2.2.2.2.2.2.2.2.2.2.2.2.2.1]; omega)
  show _ = edgeRow (rowOf (V c main_arg0) (rowAt _)) (rowOf (V c main_v3) (rowAt _)) (rowOf (V c main_arg1) (rowAt _)) (rowOf (V c main_v5) (rowAt _))
    (matOf (V c main_arg2)) (vecOf (V c main_arg3)) (matOf (V c main_arg4)) (vecOf (V c main_arg5)) (colAt _)
  rw [hr, hc, row0_0 V c t p n hn, row0_1 V c t p n hn, row0_2 V c t p n hn, row0_3 V c t p n hn,
    iblk0_4_eq V c t, iblk0_5_eq V c t, iblk0_6_eq V c t, iblk0_7_eq V c t]

/-- Point `t` writes back block `t` of the shifts of position. -/
theorem flushed0_12_eq (c : Dev nD) (t : Fin cfg0.N) :
    (dat0 V c).flushed 12 t = ((cfg0.win 12).blk t).view.read (Elt Ideal) (shifts V c) := by
  have hN : t.val < 64 := lt_of_lt_of_eq t.isLt (show cfg0.N = 64 from N_0)
  show (cfg0.win 12).cut (grid0.coords t) ((dat0 V c).after 12 t) = _
  rw [after0_12]
  funext y
  obtain ⟨p, d, rfl⟩ : ∃ (p : Fin 2048) (d : Fin 3), y = ix2 p d := ⟨y 0, y 1, eq_ix2 y⟩
  show out0_12 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p d)
    = shifts V c (((cfg0.win 12).blk t).view.emb (ix2 p d))
  refine (out0_12_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p d).trans ?_
  obtain ⟨n, hn⟩ : ∃ n : Fin 131072, n.val = 2048 * t.val + p.val := ⟨⟨2048 * t.val + p.val, by have := p.isLt; omega⟩, rfl⟩
  have hr : rowAt (((cfg0.win 12).blk t).view.emb (ix2 p d) : S131072x3.Idx) = n :=
    Fin.ext (by show win0_12.index t (0 : Fin 2) * 2048 + 1 * p.val = n.val; rw [(idx0 t).2.2.2.2.2.2.2.2.2.2.2.2.2.2.2.2.2.2.2.2.2.1, hn]; omega)
  have hc : colAt (((cfg0.win 12).blk t).view.emb (ix2 p d) : S131072x3.Idx) = d :=
    Fin.ext (by show win0_12.index t (1 : Fin 2) * 3 + 1 * d.val = d.val; rw [(idx0 t).2.2.2.2.2.2.2.2.2.2.2.2.2.2.2.2.2.2.2.2.2.2]; omega)
  show _ = shiftRow (edgeRow (rowOf (V c main_arg0) (rowAt _)) (rowOf (V c main_v3) (rowAt _)) (rowOf (V c main_arg1) (rowAt _)) (rowOf (V c main_v5) (rowAt _))
    (matOf (V c main_arg2)) (vecOf (V c main_arg3)) (matOf (V c main_arg4)) (vecOf (V c main_arg5)))
    (matOf (V c main_arg6)) (vecOf (V c main_arg7)) (matOf (V c main_arg8)) (colAt _)
  rw [hr, hc, row0_0 V c t p n hn, row0_1 V c t p n hn, row0_2 V c t p n hn, row0_3 V c t p n hn,
    iblk0_4_eq V c t, iblk0_5_eq V c t, iblk0_6_eq V c t, iblk0_7_eq V c t, iblk0_8_eq V c t, iblk0_9_eq V c t, iblk0_10_eq V c t]

/-- An index of the first output array lies in point `t`'s block iff its row is one of the block's 2048 rows. -/
theorem mem_blk0_11 (t : Fin cfg0.N) (i : S131072x256.Idx) :
    i ∈ ((cfg0.win 11).blk t).view.set ↔ ∀ a : Fin 2, win0_11.index t a * S2048x256.size a ≤ (i a).val ∧ (i a).val < win0_11.index t a * S2048x256.size a + S2048x256.size a := by
  show i ∈ ((View.whole main_v6_0).slice (win0_11.rect t)).set ↔ _
  rw [View.set_slice_whole, Rect.mem_set_unit]
  exact Iff.rfl

theorem mem_blk0_12 (t : Fin cfg0.N) (i : S131072x3.Idx) :
    i ∈ ((cfg0.win 12).blk t).view.set ↔ ∀ a : Fin 2, win0_12.index t a * S2048x3.size a ≤ (i a).val ∧ (i a).val < win0_12.index t a * S2048x3.size a + S2048x3.size a := by
  show i ∈ ((View.whole main_v6_1).slice (win0_12.rect t)).set ↔ _
  rw [View.set_slice_whole, Rect.mem_set_unit]
  exact Iff.rfl

/-- Every row lies in the block of the point numbered by the row's quotient by 2048. -/
theorem cover0_11' (i : S131072x256.Idx) : ∃ t : Fin cfg0.N, (cfg0.win 11).flush t = true ∧ i ∈ ((cfg0.win 11).blk t).view.set := by
  have hi0 : (i 0).val < 131072 := (i 0).isLt
  have hi1 : (i 1).val < 256 := (i 1).isLt
  let t : Fin cfg0.N := ⟨(i 0).val / 2048, by rw [show cfg0.N = 64 from N_0]; omega⟩
  refine ⟨t, flush0_11 t, ?_⟩
  rw [mem_blk0_11]
  have e0 : win0_11.index t (0 : Fin 2) = (i 0).val / 2048 := (idx0 t).2.2.2.2.2.2.2.2.2.2.2.2.2.2.2.2.2.2.2.1
  have e1 : win0_11.index t (1 : Fin 2) = 0 := (idx0 t).2.2.2.2.2.2.2.2.2.2.2.2.2.2.2.2.2.2.2.2.1
  intro a
  match a with
  | ⟨0, _⟩ => show win0_11.index t (0 : Fin 2) * 2048 ≤ (i 0).val ∧ (i 0).val < win0_11.index t (0 : Fin 2) * 2048 + 2048; rw [e0]; omega
  | ⟨1, _⟩ => show win0_11.index t (1 : Fin 2) * 256 ≤ (i 1).val ∧ (i 1).val < win0_11.index t (1 : Fin 2) * 256 + 256; rw [e1]; omega

theorem cover0_12' (i : S131072x3.Idx) : ∃ t : Fin cfg0.N, (cfg0.win 12).flush t = true ∧ i ∈ ((cfg0.win 12).blk t).view.set := by
  have hi0 : (i 0).val < 131072 := (i 0).isLt
  have hi1 : (i 1).val < 3 := (i 1).isLt
  let t : Fin cfg0.N := ⟨(i 0).val / 2048, by rw [show cfg0.N = 64 from N_0]; omega⟩
  refine ⟨t, flush0_12 t, ?_⟩
  rw [mem_blk0_12]
  have e0 : win0_12.index t (0 : Fin 2) = (i 0).val / 2048 := (idx0 t).2.2.2.2.2.2.2.2.2.2.2.2.2.2.2.2.2.2.2.2.2.1
  have e1 : win0_12.index t (1 : Fin 2) = 0 := (idx0 t).2.2.2.2.2.2.2.2.2.2.2.2.2.2.2.2.2.2.2.2.2.2
  intro a
  match a with
  | ⟨0, _⟩ => show win0_12.index t (0 : Fin 2) * 2048 ≤ (i 0).val ∧ (i 0).val < win0_12.index t (0 : Fin 2) * 2048 + 2048; rw [e0]; omega
  | ⟨1, _⟩ => show win0_12.index t (1 : Fin 2) * 3 ≤ (i 1).val ∧ (i 1).val < win0_12.index t (1 : Fin 2) * 3 + 3; rw [e1]; omega

/-- After the launch the first output array holds the edge attributes of the arrays the launch found. -/
theorem final0_11 (c : Dev nD) : (dat0 V c).arrAt 11 cfg0.N = edges V c :=
  (dat0 V c).arrAt_eq_of_cover 11 (edges V c) (fun t _ => flushed0_11_eq V c t) (cover0_11' )

/-- After the launch the second output array holds the shifts of position. -/
theorem final0_12 (c : Dev nD) : (dat0 V c).arrAt 12 cfg0.N = shifts V c :=
  (dat0 V c).arrAt_eq_of_cover 12 (shifts V c) (fun t _ => flushed0_12_eq V c t) (cover0_12')

end Cert.KernelIdeal.Whole

end
-- ==== Proof.Blocks1.lean ====
/-
  The node kernel's launch, read whole: after its 64 blocks of 2048 rows have been written back, its output array holds,
  row by row, the nodes' new features computed from the rows of the feature array and of the update array it was
  launched on (the weights are read whole at every block).
-/
import proofs.«170481_j40836549050449_1_alg».proof.Proof.Gen.KernelIdeal.Frame
import proofs.«170481_j40836549050449_1_alg».proof.Proof.KernelRows
import Idealize.ShloMosaic.Lib.Pipeline.Value

set_option maxRecDepth 16384

noncomputable section

namespace Cert.KernelIdeal.Whole1

open Cert.KernelIdeal Cert.KernelIdeal.Gen Cert.Chain
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-- The printed index maps over the grid: a block of nodes or edges at point `t` is block `t` along the rows; a weight's block is
    the whole array at every point. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0
    ∧ win1_6.index t (0 : Fin 2) = t.val
    ∧ win1_6.index t (1 : Fin 2) = 0 :=
  (by decide +kernel : ∀ t : Fin grid1.N, _)

/-- Window 0's block at point `t`: entry `(p, k)` is entry `(2048 t + p, k)` of its array. -/
theorem iblk1_0_apply (c : Dev nD) (t : Fin cfg1.N) (p : Fin 2048) (k : Fin 256) (n : Fin 131072) (hn : n.val = 2048 * t.val + p.val) :
    (iblk1 V c 0 t : Vec Ideal S2048x256 .f32) (ix2 p k) = (V c main_arg0 : S131072x256.Idx → EReal) (ix2 n k) := by
  unfold iblk1
  rw [View.read_apply]
  show V c main_arg0 _ = V c main_arg0 _
  congr 1
  funext a
  apply Fin.ext
  match a with
  | ⟨0, _⟩ => show win1_0.index t (0 : Fin 2) * 2048 + 1 * p.val = n.val; rw [(idx1 t).1, hn]; omega
  | ⟨1, _⟩ => show win1_0.index t (1 : Fin 2) * 256 + 1 * k.val = k.val; rw [(idx1 t).2.1]; omega

theorem row1_0 (c : Dev nD) (t : Fin cfg1.N) (p : Fin 2048) (n : Fin 131072) (hn : n.val = 2048 * t.val + p.val) :
    rowOf (iblk1 V c 0 t : Vec Ideal S2048x256 .f32) p = rowOf (V c main_arg0 : S131072x256.Idx → EReal) n :=
  funext fun k => iblk1_0_apply V c t p k n hn

/-- Window 1's block at point `t`: entry `(p, k)` is entry `(2048 t + p, k)` of its array. -/
theorem iblk1_1_apply (c : Dev nD) (t : Fin cfg1.N) (p : Fin 2048) (k : Fin 256) (n : Fin 131072) (hn : n.val = 2048 * t.val + p.val) :
    (iblk1 V c 1 t : Vec Ideal S2048x256 .f32) (ix2 p k) = (V c main_v13 : S131072x256.Idx → EReal) (ix2 n k) := by
  unfold iblk1
  rw [View.read_apply]
  show V c main_v13 _ = V c main_v13 _
  congr 1
  funext a
  apply Fin.ext
  match a with
  | ⟨0, _⟩ => show win1_1.index t (0 : Fin 2) * 2048 + 1 * p.val = n.val; rw [(idx1 t).2.2.1, hn]; omega
  | ⟨1, _⟩ => show win1_1.index t (1 : Fin 2) * 256 + 1 * k.val = k.val; rw [(idx1 t).2.2.2.1]; omega

theorem row1_1 (c : Dev nD) (t : Fin cfg1.N) (p : Fin 2048) (n : Fin 131072) (hn : n.val = 2048 * t.val + p.val) :
    rowOf (iblk1 V c 1 t : Vec Ideal S2048x256 .f32) p = rowOf (V c main_v13 : S131072x256.Idx → EReal) n :=
  funext fun k => iblk1_1_apply V c t p k n hn

/-- Window 2's block at every point is its whole array. -/
theorem iblk1_2_eq (c : Dev nD) (t : Fin cfg1.N) :
    (iblk1 V c 2 t : Vec Ideal S512x256 .f32) = (V c main_arg9 : S512x256.Idx → EReal) := by
  funext y
  unfold iblk1
  rw [View.read_apply]
  show V c main_arg9 _ = V c main_arg9 _
  congr 1
  funext a
  apply Fin.ext
  match a with
  | ⟨0, _⟩ => show win1_2.index t (0 : Fin 2) * 512 + 1 * (y 0).val = (y 0).val; rw [(idx1 t).2.2.2.2.1]; omega
  | ⟨1, _⟩ => show win1_2.index t (1 : Fin 2) * 256 + 1 * (y 1).val = (y 1).val; rw [(idx1 t).2.2.2.2.2.1]; omega

/-- Window 3's block at every point is its whole array. -/
theorem iblk1_3_eq (c : Dev nD) (t : Fin cfg1.N) :
    (iblk1 V c 3 t : Vec Ideal S256 .f32) = (V c main_arg10 : S256.Idx → EReal) := by
  funext y
  unfold iblk1
  rw [View.read_apply]
  show V c main_arg10 _ = V c main_arg10 _
  congr 1
  funext a
  apply Fin.ext
  match a with
  | ⟨0, _⟩ => show win1_3.index t (0 : Fin 1) * 256 + 1 * (y 0).val = (y 0).val; rw [(idx1 t).2.2.2.2.2.2.1]; omega

/-- Window 4's block at every point is its whole array. -/
theorem iblk1_4_eq (c : Dev nD) (t : Fin cfg1.N) :
    (iblk1 V c 4 t : Vec Ideal S256x256 .f32) = (V c main_arg11 : S256x256.Idx → EReal) := by
  funext y
  unfold iblk1
  rw [View.read_apply]
  show V c main_arg11 _ = V c main_arg11 _
  congr 1
  funext a
  apply Fin.ext
  match a with
  | ⟨0, _⟩ => show win1_4.index t (0 : Fin 2) * 256 + 1 * (y 0).val = (y 0).val; rw [(idx1 t).2.2.2.2.2.2.2.1]; omega
  | ⟨1, _⟩ => show win1_4.index t (1 : Fin 2) * 256 + 1 * (y 1).val = (y 1).val; rw [(idx1 t).2.2.2.2.2.2.2.2.1]; omega

/-- Window 5's block at every point is its whole array. -/
theorem iblk1_5_eq (c : Dev nD) (t : Fin cfg1.N) :
    (iblk1 V c 5 t : Vec Ideal S256 .f32) = (V c main_arg12 : S256.Idx → EReal) := by
  funext y
  unfold iblk1
  rw [View.read_apply]
  show V c main_arg12 _ = V c main_arg12 _
  congr 1
  funext a
  apply Fin.ext
  match a with
  | ⟨0, _⟩ => show win1_5.index t (0 : Fin 1) * 256 + 1 * (y 0).val = (y 0).val; rw [(idx1 t).2.2.2.2.2.2.2.2.2.1]; omega

/-- What the body leaves in the output's buffer, at an entry: the new feature row of the blocks' row `p`. -/
theorem out1_6_apply (x0 x1 : Vec Ideal S2048x256 .f32) (x2 : Vec Ideal S512x256 .f32) (x3 : Vec Ideal S256 .f32)
    (x4 : Vec Ideal S256x256 .f32) (x5 : Vec Ideal S256 .f32) (p : Fin 2048) (q : Fin 256) :
    out1_6 (F := Ideal) x0 x1 x2 x3 x4 x5 (ix2 p q)
      = nodeRow (rowOf x0 p) (rowOf x1 p) (matOf x2) (vecOf x3) (matOf x4) (vecOf x5) q := by
  unfold out1_6
  rw [View.canon_unit_zero hz2]
  simp only [View.ld_unit_zero (S := S2048x256) hz2, View.ld_unit_zero (S := S512x256) hz2,
    View.ld_unit_zero (S := S256x256) hz2, View.ld_unit_zero (S := S256) hz1]
  exact node_payload x0 x1 x2 x3 x4 x5 p q

/-- The nodes' new features as one function of the arrays the launch finds. -/
abbrev nodes (c : Dev nD) : S131072x256.Idx → EReal :=
  nodeArr (V c main_arg0) (V c main_v13) (V c main_arg9) (V c main_arg10) (V c main_arg11) (V c main_arg12)

/-- Point `t` writes back block `t` of the new features. -/
theorem flushed1_6_eq (c : Dev nD) (t : Fin cfg1.N) :
    (dat1 V c).flushed 6 t = ((cfg1.win 6).blk t).view.read (Elt Ideal) (nodes V c) := by
  have hN : t.val < 64 := lt_of_lt_of_eq t.isLt (show cfg1.N = 64 from N_1)
  show (cfg1.win 6).cut (grid1.coords t) ((dat1 V c).after 6 t) = _
  rw [after1_6]
  funext y
  obtain ⟨p, q, rfl⟩ : ∃ (p : Fin 2048) (q : Fin 256), y = ix2 p q := ⟨y 0, y 1, eq_ix2 y⟩
  show out1_6 (F := Ideal) (iblk1 V c 0 t) (iblk1 V c 1 t) (iblk1 V c 2 t) (iblk1 V c 3 t) (iblk1 V c 4 t) (iblk1 V c 5 t) (ix2 p q)
    = nodes V c (((cfg1.win 6).blk t).view.emb (ix2 p q))
  refine (out1_6_apply (iblk1 V c 0 t) (iblk1 V c 1 t) (iblk1 V c 2 t) (iblk1 V c 3 t) (iblk1 V c 4 t) (iblk1 V c 5 t) p q).trans ?_
  obtain ⟨n, hn⟩ : ∃ n : Fin 131072, n.val = 2048 * t.val + p.val := ⟨⟨2048 * t.val + p.val, by have := p.isLt; omega⟩, rfl⟩
  have hr : rowAt (((cfg1.win 6).blk t).view.emb (ix2 p q) : S131072x256.Idx) = n :=
    Fin.ext (by show win1_6.index t (0 : Fin 2) * 2048 + 1 * p.val = n.val; rw [(idx1 t).2.2.2.2.2.2.2.2.2.2.1, hn]; omega)
  have hc : colAt (((cfg1.win 6).blk t).view.emb (ix2 p q) : S131072x256.Idx) = q :=
    Fin.ext (by show win1_6.index t (1 : Fin 2) * 256 + 1 * q.val = q.val; rw [(idx1 t).2.2.2.2.2.2.2.2.2.2.2]; omega)
  show _ = nodeRow (rowOf (V c main_arg0) (rowAt _)) (rowOf (V c main_v13) (rowAt _))
    (matOf (V c main_arg9)) (vecOf (V c main_arg10)) (matOf (V c main_arg11)) (vecOf (V c main_arg12)) (colAt _)
  rw [hr, hc, row1_0 V c t p n hn, row1_1 V c t p n hn, iblk1_2_eq V c t, iblk1_3_eq V c t, iblk1_4_eq V c t, iblk1_5_eq V c t]

/-- An index of the output array lies in point `t`'s block iff its row is one of the block's 2048 rows. -/
theorem mem_blk1_6 (t : Fin cfg1.N) (i : S131072x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v17).slice (win1_6.rect t)).set ↔ _
  rw [View.set_slice_whole, Rect.mem_set_unit]
  exact Iff.rfl

/-- Every row lies in the block of the point numbered by the row's quotient by 2048. -/
theorem cover1_6' (i : S131072x256.Idx) : ∃ t : Fin cfg1.N, (cfg1.win 6).flush t = true ∧ i ∈ ((cfg1.win 6).blk t).view.set := by
  have hi0 : (i 0).val < 131072 := (i 0).isLt
  have hi1 : (i 1).val < 256 := (i 1).isLt
  let t : Fin cfg1.N := ⟨(i 0).val / 2048, by rw [show cfg1.N = 64 from N_1]; omega⟩
  refine ⟨t, flush1_6 t, ?_⟩
  rw [mem_blk1_6]
  have e0 : win1_6.index t (0 : Fin 2) = (i 0).val / 2048 := (idx1 t).2.2.2.2.2.2.2.2.2.2.1
  have e1 : win1_6.index t (1 : Fin 2) = 0 := (idx1 t).2.2.2.2.2.2.2.2.2.2.2
  intro a
  match a with
  | ⟨0, _⟩ => show win1_6.index t (0 : Fin 2) * 2048 ≤ (i 0).val ∧ (i 0).val < win1_6.index t (0 : Fin 2) * 2048 + 2048; rw [e0]; omega
  | ⟨1, _⟩ => show win1_6.index t (1 : Fin 2) * 256 ≤ (i 1).val ∧ (i 1).val < win1_6.index t (1 : Fin 2) * 256 + 256; rw [e1]; omega

/-- After the launch the output array holds the nodes' new features of the arrays the launch found. -/
theorem final1_6 (c : Dev nD) : (dat1 V c).arrAt 6 cfg1.N = nodes V c :=
  (dat1 V c).arrAt_eq_of_cover 6 (nodes V c) (fun t _ => flushed1_6_eq V c t) (cover1_6')

end Cert.KernelIdeal.Whole1

end
-- ==== Proof.Glue.lean ====
/-
  The kernel program's two results as functions of the launch memory: the two launches' outputs, read whole, put through
  the host operations between and after them.
-/
import proofs.«170481_j40836549050449_1_alg».proof.Proof.GlueHost
import proofs.«170481_j40836549050449_1_alg».proof.Proof.Blocks0
import proofs.«170481_j40836549050449_1_alg».proof.Proof.Blocks1

set_option maxRecDepth 16384

noncomputable section

namespace Cert.KernelIdeal.Whole

open Cert.KernelIdeal Cert.KernelIdeal.Gen Cert.Chain
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The edge attributes the edge kernel leaves (one row per edge slot), as a function of the launch memory. -/
abbrev E0 (c : Dev nD) : S131072x256.Idx → EReal :=
  edgeArr (m ((c : Thread nD τ).loc main_arg0)) (upH (m ((c : Thread nD τ).loc main_arg0))) (m ((c : Thread nD τ).loc main_arg1)) (upP (m ((c : Thread nD τ).loc main_arg1)))
    (m ((c : Thread nD τ).loc main_arg2)) (m ((c : Thread nD τ).loc main_arg3)) (m ((c : Thread nD τ).loc main_arg4)) (m ((c : Thread nD τ).loc main_arg5))
/-- The shifts of position the edge kernel leaves, as a function of the launch memory. -/
abbrev D0 (c : Dev nD) : S131072x3.Idx → EReal :=
  shiftArr (m ((c : Thread nD τ).loc main_arg0)) (upH (m ((c : Thread nD τ).loc main_arg0))) (m ((c : Thread nD τ).loc main_arg1)) (upP (m ((c : Thread nD τ).loc main_arg1)))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem edges_V1 (c : Dev nD) : edges (V1 m ρ) c = E0 m c := by
  show edgeArr (W1 m ρ c (Proc.devRef .tc main_arg0)) (W1 m ρ c (Proc.devRef .tc main_v3)) (W1 m ρ c (Proc.devRef .tc main_arg1)) (W1 m ρ c (Proc.devRef .tc main_v5))
    (W1 m ρ c (Proc.devRef .tc main_arg2)) (W1 m ρ c (Proc.devRef .tc main_arg3)) (W1 m ρ c (Proc.devRef .tc main_arg4)) (W1 m ρ c (Proc.devRef .tc main_arg5)) = _
  rw [w1_arg0, w1_v3, w1_arg1, w1_v5, w1_arg2, w1_arg3, w1_arg4, w1_arg5]
theorem shifts_V1 (c : Dev nD) : shifts (V1 m ρ) c = D0 m c := by
  show shiftArr (W1 m ρ c (Proc.devRef .tc main_arg0)) (W1 m ρ c (Proc.devRef .tc main_v3)) (W1 m ρ c (Proc.devRef .tc main_arg1)) (W1 m ρ c (Proc.devRef .tc main_v5))
    (W1 m ρ c (Proc.devRef .tc main_arg2)) (W1 m ρ c (Proc.devRef .tc main_arg3)) (W1 m ρ c (Proc.devRef .tc main_arg4)) (W1 m ρ c (Proc.devRef .tc main_arg5))
    (W1 m ρ c (Proc.devRef .tc main_arg6)) (W1 m ρ c (Proc.devRef .tc main_arg7)) (W1 m ρ c (Proc.devRef .tc main_arg8)) = _
  rw [w1_arg0, w1_v3, w1_arg1, w1_v5, w1_arg2, w1_arg3, w1_arg4, w1_arg5, w1_arg6, w1_arg7, w1_arg8]

/-- At the edge kernel's exit its two output arrays hold the edge attributes and the shifts. -/
theorem w2_v6_0 (c : Dev nD) : W2 m ρ c (Proc.devRef .tc main_v6_0) = E0 m c :=
  (W2_arr m ρ c 11).trans ((final0_11 (V1 m ρ) c).trans (edges_V1 m ρ c))
theorem w2_v6_1 (c : Dev nD) : W2 m ρ c (Proc.devRef .tc main_v6_1) = D0 m c :=
  (W2_arr m ρ c 12).trans ((final0_12 (V1 m ρ) c).trans (shifts_V1 m ρ c))

/-- The new node features the node kernel leaves, as a function of the launch memory. -/
abbrev N0 (c : Dev nD) : S131072x256.Idx → EReal :=
  nodeArr (m ((c : Thread nD τ).loc main_arg0)) (pairSum (headH (E0 m c)))
    (m ((c : Thread nD τ).loc main_arg9)) (m ((c : Thread nD τ).loc main_arg10)) (m ((c : Thread nD τ).loc main_arg11)) (m ((c : Thread nD τ).loc main_arg12))

theorem nodes_V3 (c : Dev nD) : Whole1.nodes (V3 m ρ) c = N0 m c := by
  show nodeArr (W3 m ρ c (Proc.devRef .tc main_arg0)) (W3 m ρ c (Proc.devRef .tc main_v13))
    (W3 m ρ c (Proc.devRef .tc main_arg9)) (W3 m ρ c (Proc.devRef .tc main_arg10)) (W3 m ρ c (Proc.devRef .tc main_arg11)) (W3 m ρ c (Proc.devRef .tc main_arg12)) = _
  rw [w3_arg0, w3_v13, w2_v6_0, w3_arg9, w3_arg10, w3_arg11, w3_arg12]

/-- The first result: the nodes' new features. -/
theorem result_features (c : Dev nD) : W5 m ρ c (Proc.devRef .tc main_v17) = N0 m c :=
  (w5_v17 m ρ c).trans ((Whole1.final1_6 (V3 m ρ) c).trans (nodes_V3 m ρ c))

/-- The second result: the new positions. -/
theorem result_positions (c : Dev nD) : W5 m ρ c (Proc.devRef .tc main_v20)
    = newPos (m ((c : Thread nD τ).loc main_arg1)) (pairDiff (headP (D0 m c))) :=
  (w5_v20 m ρ c).trans (congrArg (fun D => newPos (m ((c : Thread nD τ).loc main_arg1)) (pairDiff (headP D))) (w2_v6_1 m ρ c))

end Cert.KernelIdeal.Whole

end
-- ==== Proof.RefRows.lean ====
/-
  The reference program's stages, read at an entry. The reference computes, for every edge `n` of the chain, the
  attribute row and the shift of position from the rows of nodes `n` and `n + 1`, and for every node its new feature
  row from its own row and its update row; read at an entry these are the row functions of the specification.
-/
import proofs.«170481_j40836549050449_1_alg».proof.Proof.Gen.ReferenceIdeal.Read
import proofs.«170481_j40836549050449_1_alg».proof.Proof.Joins

noncomputable section

namespace Cert.Chain

open Idealize.ShloMosaic Idealize.ShloMosaic.ValueIdx Cert.ReferenceIdeal Cert.ReferenceIdeal.Read

/-- SiLU as the reference computes it, `z · (1 / (1 + e^(-z)))` with both ones given as the float word of 1.0. -/
private theorem silu_word (z : EReal) :
    z * Ideal.div (Ideal.ofBits .f32 0x3F800000#32) (Ideal.ofBits .f32 0x3F800000#32 + Ideal.exp (-z)) = silu z := by
  rw [one_word]
  rfl

/-- The difference of the two end nodes' positions at `(n, k)`: node `n + 1`'s minus node `n`'s. -/
private theorem v2_row (x1 : (⟨S131072x3, .f32⟩ : BufTy).Contents (Elt Ideal)) (n : Fin 131071) (k : Fin 3) :
    val_main_v2 (F := Ideal) x1 (ix2 n k) = rowOf x1 (hi n) k - rowOf x1 (lo n) k := by
  rw [val_main_v2_apply, val_main_v0_apply, val_main_v1_apply]
  have e0 : idx_main_v0 (ix2 n k) = ix2 (hi n) k :=
    funext fun a => Fin.ext (by match a with | ⟨0, _⟩ => (show 1 + n.val = n.val + 1; omega) | ⟨1, _⟩ => rfl)
  have e1 : idx_main_v1 (ix2 n k) = ix2 (lo n) k := funext fun a => Fin.ext (by match a with | ⟨0, _⟩ => rfl | ⟨1, _⟩ => rfl)
  rw [e0, e1]
  rfl

/-- The distance column at row `n`: the Euclidean distance between the positions of nodes `n` and `n + 1`. -/
private theorem v3_row (x1 : (⟨S131072x3, .f32⟩ : BufTy).Contents (Elt Ideal)) (n : Fin 131071) :
    val_main_v3 (F := Ideal) x1 (ix2 n (0 : Fin 1)) = dist3 (rowOf x1 (lo n)) (rowOf x1 (hi n)) := by
  rw [val_main_v3_apply, val_main_call0_v2_apply, val_main_call0_v1_apply, val_main_call0_cst_apply]
  show Ideal.sqrt (Ideal.ofBits .f32 0x00000000#32 + _) = _
  rw [Ideal.ofBits_zero_f32, zero_add]
  unfold dist3
  refine congrArg Ideal.sqrt (Finset.sum_congr rfl fun k _ => ?_)
  have e : idx_main_call0_v1 (idx_main_call0_v2 (ix2 n (0 : Fin 1))) k = ix2 n k := funext fun a => Fin.ext (by match a with | ⟨0, _⟩ => rfl | ⟨1, _⟩ => rfl)
  rw [e, val_main_call0_v0_apply, v2_row]
  rfl

/-- The edge layer's input row at `(n, q)`: the rows of nodes `n` and `n + 1` and their distance, side by side. -/
private theorem v6_row (x0 : (⟨S131072x256, .f32⟩ : BufTy).Contents (Elt Ideal)) (x1 : (⟨S131072x3, .f32⟩ : BufTy).Contents (Elt Ideal))
    (n : Fin 131071) (q : Fin 513) :
    val_main_v6 (F := Ideal) x0 x1 (ix2 n q)
      = join3 (rowOf x0 (lo n)) (rowOf x0 (hi n)) (dist3 (rowOf x1 (lo n)) (rowOf x1 (hi n))) q := by
  unfold val_main_v6
  rw [concat3_apply, v3_row]
  have h4 : rowOf (val_main_v4 (F := Ideal) x0) n = rowOf x0 (lo n) := funext fun k => by
    show val_main_v4 (F := Ideal) x0 (ix2 n k) = x0 (ix2 (lo n) k)
    rw [val_main_v4_apply]
    exact congrArg x0 (funext fun a => Fin.ext (by match a with | ⟨0, _⟩ => rfl | ⟨1, _⟩ => rfl))
  have h5 : rowOf (val_main_v5 (F := Ideal) x0) n = rowOf x0 (hi n) := funext fun k => by
    show val_main_v5 (F := Ideal) x0 (ix2 n k) = x0 (ix2 (hi n) k)
    rw [val_main_v5_apply]
    exact congrArg x0 (funext fun a => Fin.ext (by match a with | ⟨0, _⟩ => (show 1 + n.val = n.val + 1; omega) | ⟨1, _⟩ => rfl))
  rw [h4, h5]

/-- The edge layer's first bias, spread over the rows, at `(n, c)`. -/
private theorem v9_row (x3 : (⟨S256, .f32⟩ : BufTy).Contents (Elt Ideal)) (n : Fin 131071) (c : Fin 256) :
    val_main_v9 (F := Ideal) x3 (ix2 n c) = vecOf x3 c := by
  rw [val_main_v9_apply, val_main_v8_apply]
  exact congrArg x3 (funext fun a => Fin.ext (by match a with | ⟨0, _⟩ => rfl))

/-- The edge layer's second bias, spread over the rows, at `(n, c)`. -/
private theorem v14_row (x5 : (⟨S256, .f32⟩ : BufTy).Contents (Elt Ideal)) (n : Fin 131071) (c : Fin 256) :
    val_main_v14 (F := Ideal) x5 (ix2 n c) = vecOf x5 c := by
  rw [val_main_v14_apply, val_main_v13_apply]
  exact congrArg x5 (funext fun a => Fin.ext (by match a with | ⟨0, _⟩ => rfl))

/-- The edge layer's first dense layer at `(n, k)`. -/
private theorem v10_row (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (n : Fin 131071) (k : Fin 256) :
    val_main_v10 (F := Ideal) x0 x1 x2 x3 (ix2 n k)
      = dense (join3 (rowOf x0 (lo n)) (rowOf x0 (hi n)) (dist3 (rowOf x1 (lo n)) (rowOf x1 (hi n)))) (matOf x2) (vecOf x3) k := by
  rw [val_main_v10_apply, val_main_v7_apply, v9_row]
  unfold dense
  refine congrArg (· + vecOf x3 k) (Finset.sum_congr rfl fun q _ => ?_)
  have el : lidx_main_v7 (ix2 n k) q = ix2 n q := funext fun a => Fin.ext (by match a with | ⟨0, _⟩ => rfl | ⟨1, _⟩ => rfl)
  have er : ridx_main_v7 (ix2 n k) q = ix2 q k := funext fun a => Fin.ext (by match a with | ⟨0, _⟩ => rfl | ⟨1, _⟩ => rfl)
  rw [el, er, v6_row]
  rfl

/-- SiLU of the edge layer's first dense layer, at any entry. -/
private theorem v11_silu (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (i : S131071x256.Idx) :
    val_main_v11 (F := Ideal) x0 x1 x2 x3 i = silu (val_main_v10 (F := Ideal) x0 x1 x2 x3 i) := by
  rw [val_main_v11_apply, val_main_call1_v5_apply, val_main_call1_v4_apply, val_main_call1_cst_0_apply, val_main_call1_v3_apply,
    val_main_call1_v2_apply, val_main_call1_cst_apply, val_main_call1_v1_apply, val_main_call1_v0_apply]
  exact silu_word _

/-- The reference's edge attributes at `(n, c)`: the attribute row of edge `n`, whose ends are nodes `n` and `n + 1`. -/
theorem ref_edge (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (n : Fin 131071) (c : Fin 256) :
    val_main_v15 (F := Ideal) x0 x1 x2 x3 x4 x5 (ix2 n c)
      = edgeRow (rowOf x0 (lo n)) (rowOf x0 (hi n)) (rowOf x1 (lo n)) (rowOf x1 (hi n)) (matOf x2) (vecOf x3) (matOf x4) (vecOf x5) c := by
  rw [val_main_v15_apply, val_main_v12_apply, v14_row]
  unfold edgeRow dense
  refine congrArg (· + vecOf x5 c) (Finset.sum_congr rfl fun k _ => ?_)
  have el : lidx_main_v12 (ix2 n c) k = ix2 n k := funext fun a => Fin.ext (by match a with | ⟨0, _⟩ => rfl | ⟨1, _⟩ => rfl)
  have er : ridx_main_v12 (ix2 n c) k = ix2 k c := funext fun a => Fin.ext (by match a with | ⟨0, _⟩ => rfl | ⟨1, _⟩ => rfl)
  rw [el, er, v11_silu, v10_row]
  rfl

/-- The shift layer's bias, spread over the rows, at `(n, c)`. -/
private theorem v18_row (x7 : (⟨S256, .f32⟩ : BufTy).Contents (Elt Ideal)) (n : Fin 131071) (c : Fin 256) :
    val_main_v18 (F := Ideal) x7 (ix2 n c) = vecOf x7 c := by
  rw [val_main_v18_apply, val_main_v17_apply]
  exact congrArg x7 (funext fun a => Fin.ext (by match a with | ⟨0, _⟩ => rfl))

/-- The shift layer's dense layer at `(n, k)`: the edge's attribute row through the weights and bias. -/
private theorem v19_row (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (n : Fin 131071) (k : Fin 256) :
    val_main_v19 (F := Ideal) x0 x1 x2 x3 x4 x5 x6 x7 (ix2 n k)
      = dense (edgeRow (rowOf x0 (lo n)) (rowOf x0 (hi n)) (rowOf x1 (lo n)) (rowOf x1 (hi n)) (matOf x2) (vecOf x3) (matOf x4) (vecOf x5))
          (matOf x6) (vecOf x7) k := by
  rw [val_main_v19_apply, val_main_v16_apply, v18_row]
  unfold dense
  refine congrArg (· + vecOf x7 k) (Finset.sum_congr rfl fun q _ => ?_)
  have el : lidx_main_v16 (ix2 n k) q = ix2 n q := funext fun a => Fin.ext (by match a with | ⟨0, _⟩ => rfl | ⟨1, _⟩ => rfl)
  have er : ridx_main_v16 (ix2 n k) q = ix2 q k := funext fun a => Fin.ext (by match a with | ⟨0, _⟩ => rfl | ⟨1, _⟩ => rfl)
  rw [el, er, ref_edge]
  rfl

/-- SiLU of the shift layer's dense layer, at any entry. -/
private theorem v20_silu (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (i : S131071x256.Idx) :
    val_main_v20 (F := Ideal) x0 x1 x2 x3 x4 x5 x6 x7 i = silu (val_main_v19 (F := Ideal) x0 x1 x2 x3 x4 x5 x6 x7 i) := by
  rw [val_main_v20_apply, val_main_call2_v5_apply, val_main_call2_v4_apply, val_main_call2_cst_0_apply, val_main_call2_v3_apply,
    val_main_call2_v2_apply, val_main_call2_cst_apply, val_main_call2_v1_apply, val_main_call2_v0_apply]
  exact silu_word _

/-- The reference's shifts of position at `(n, d)`. -/
theorem ref_shift (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x3, .f32⟩ : BufTy).Contents (Elt Ideal)) (n : Fin 131071) (d : Fin 3) :
    val_main_v21 (F := Ideal) x0 x1 x2 x3 x4 x5 x6 x7 x8 (ix2 n d)
      = shiftRow (edgeRow (rowOf x0 (lo n)) (rowOf x0 (hi n)) (rowOf x1 (lo n)) (rowOf x1 (hi n)) (matOf x2) (vecOf x3) (matOf x4) (vecOf x5))
          (matOf x6) (vecOf x7) (matOf x8) d := by
  rw [val_main_v21_apply]
  unfold shiftRow
  refine Finset.sum_congr rfl fun k _ => ?_
  have el : lidx_main_v21 (ix2 n d) k = ix2 n k := funext fun a => Fin.ext (by match a with | ⟨0, _⟩ => rfl | ⟨1, _⟩ => rfl)
  have er : ridx_main_v21 (ix2 n d) k = ix2 k d := funext fun a => Fin.ext (by match a with | ⟨0, _⟩ => rfl | ⟨1, _⟩ => rfl)
  rw [el, er, v20_silu, v19_row]
  rfl

/-- The node layer's first bias, spread over the rows, at `(n, c)`. -/
private theorem v33_row (x10 : (⟨S256, .f32⟩ : BufTy).Contents (Elt Ideal)) (n : Fin 131072) (c : Fin 256) :
    val_main_v33 (F := Ideal) x10 (ix2 n c) = vecOf x10 c := by
  rw [val_main_v33_apply, val_main_v32_apply]
  exact congrArg x10 (funext fun a => Fin.ext (by match a with | ⟨0, _⟩ => rfl))

/-- The node layer's second bias, spread over the rows, at `(n, c)`. -/
private theorem v38_row (x12 : (⟨S256, .f32⟩ : BufTy).Contents (Elt Ideal)) (n : Fin 131072) (c : Fin 256) :
    val_main_v38 (F := Ideal) x12 (ix2 n c) = vecOf x12 c := by
  rw [val_main_v38_apply, val_main_v37_apply]
  exact congrArg x12 (funext fun a => Fin.ext (by match a with | ⟨0, _⟩ => rfl))

/-- The node layer's first dense layer at `(n, k)`: the joined row `[x0 n | v29 n]` through the weights and bias. -/
private theorem v34_row (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x9 : (⟨S512x256, .f32⟩ : BufTy).Contents (Elt Ideal)) (x10 : (⟨S256, .f32⟩ : BufTy).Contents (Elt Ideal))
    (n : Fin 131072) (k : Fin 256) :
    val_main_v34 (F := Ideal) x0 x1 x2 x3 x4 x5 x9 x10 (ix2 n k)
      = dense (join2 (rowOf x0 n) (rowOf (val_main_v29 (F := Ideal) x0 x1 x2 x3 x4 x5) n)) (matOf x9) (vecOf x10) k := by
  rw [val_main_v34_apply, val_main_v31_apply, v33_row]
  unfold dense
  refine congrArg (· + vecOf x10 k) (Finset.sum_congr rfl fun q _ => ?_)
  have el : lidx_main_v31 (ix2 n k) q = ix2 n q :=
    funext fun a => Fin.ext (by match a with | ⟨0, _⟩ => rfl | ⟨1, _⟩ => rfl)
  have er : ridx_main_v31 (ix2 n k) q = ix2 q k :=
    funext fun a => Fin.ext (by match a with | ⟨0, _⟩ => rfl | ⟨1, _⟩ => rfl)
  rw [el, er]
  unfold val_main_v30
  rw [concat2_apply]
  rfl

/-- SiLU of the node layer's first dense layer, at any entry. -/
private theorem v35_silu (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x9 : (⟨S512x256, .f32⟩ : BufTy).Contents (Elt Ideal)) (x10 : (⟨S256, .f32⟩ : BufTy).Contents (Elt Ideal))
    (i : S131072x256.Idx) :
    val_main_v35 (F := Ideal) x0 x1 x2 x3 x4 x5 x9 x10 i = silu (val_main_v34 (F := Ideal) x0 x1 x2 x3 x4 x5 x9 x10 i) := by
  rw [val_main_v35_apply, val_main_call3_v5_apply, val_main_call3_v4_apply, val_main_call3_cst_0_apply, val_main_call3_v3_apply,
    val_main_call3_v2_apply, val_main_call3_cst_apply, val_main_call3_v1_apply, val_main_call3_v0_apply]
  exact silu_word _

/-- The reference's new node features at `(n, c)`, from the node's row and row `n` of the update array (left as the
    reference's own stage). -/
theorem ref_node (x0 : (⟨S131072x256, .f32⟩ : BufTy).Contents (Elt Ideal)) (x1 : (⟨S131072x3, .f32⟩ : BufTy).Contents (Elt Ideal))
    (x2 : (⟨S513x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x9 : (⟨S512x256, .f32⟩ : BufTy).Contents (Elt Ideal)) (x10 : (⟨S256, .f32⟩ : BufTy).Contents (Elt Ideal))
    (x11 : (⟨S256x256, .f32⟩ : BufTy).Contents (Elt Ideal)) (x12 : (⟨S256, .f32⟩ : BufTy).Contents (Elt Ideal))
    (n : Fin 131072) (c : Fin 256) :
    val_main_v39 (F := Ideal) x0 x1 x2 x3 x4 x5 x9 x10 x11 x12 (ix2 n c)
      = nodeRow (rowOf x0 n) (rowOf (val_main_v29 (F := Ideal) x0 x1 x2 x3 x4 x5) n) (matOf x9) (vecOf x10) (matOf x11) (vecOf x12) c := by
  rw [val_main_v39_apply, val_main_v36_apply, v38_row]
  unfold nodeRow dense
  refine congrArg (· + vecOf x12 c) (Finset.sum_congr rfl fun k _ => ?_)
  have el : lidx_main_v36 (ix2 n c) k = ix2 n k :=
    funext fun a => Fin.ext (by match a with | ⟨0, _⟩ => rfl | ⟨1, _⟩ => rfl)
  have er : ridx_main_v36 (ix2 n c) k = ix2 k c :=
    funext fun a => Fin.ext (by match a with | ⟨0, _⟩ => rfl | ⟨1, _⟩ => rfl)
  rw [el, er, v35_silu, v34_row]
  rfl

end Cert.Chain

end
-- ==== Proof.Bridge.lean ====
/-
  The kernel program's two results and the reference's are the same functions of the arguments.

  Edge `n` of the chain joins node `n` to node `n + 1`. The kernel program computes an attribute row for each of 131072
  edge slots, slot `n` from row `n` of the feature array and row `n` of the array shifted up by one (which is row `n + 1`
  for `n < 131071`), and keeps the first 131071; the reference computes exactly those 131071 rows from rows `n` and `n + 1`.
  From there on both programs apply the same operations to equal arrays.
-/
import proofs.«170481_j40836549050449_1_alg».proof.Proof.Glue
import proofs.«170481_j40836549050449_1_alg».proof.Proof.RefRows

set_option maxRecDepth 16384

noncomputable section

namespace Cert.Bridge

open Idealize.ShloMosaic Idealize.ShloMosaic.ValueIdx Cert.Chain Cert.KernelIdeal.Whole

/-- Row `n` of the feature array shifted up by one row is row `n + 1`, for `n` below the last row. -/
theorem upH_row (H : (⟨2, ![131072, 256]⟩ : Shape).Idx → EReal) (n : Fin 131071) : rowOf (upH H) (lo n) = rowOf H (hi n) := by
  funext k
  unfold upH rowOf
  refine (concatenate_pair_apply_left (s₁ := ⟨2, ![131071, 256]⟩) 0 _ _ _ (ix2 (lo n) k) rfl (ix2 n k)
    (fun b => by match b with | ⟨0, _⟩ => rfl | ⟨1, _⟩ => rfl)).trans ?_
  exact extractStridedSlice_apply ![1, 0] H _ (ix2 n k) (ix2 (hi n) k) (fun a => match a with
    | ⟨0, _⟩ => by show n.val + 1 = 1 + n.val; omega
    | ⟨1, _⟩ => by show k.val = 0 + k.val; omega)

/-- The same for the position array. -/
theorem upP_row (P : (⟨2, ![131072, 3]⟩ : Shape).Idx → EReal) (n : Fin 131071) : rowOf (upP P) (lo n) = rowOf P (hi n) := by
  funext k
  unfold upP rowOf
  refine (concatenate_pair_apply_left (s₁ := ⟨2, ![131071, 3]⟩) 0 _ _ _ (ix2 (lo n) k) rfl (ix2 n k)
    (fun b => by match b with | ⟨0, _⟩ => rfl | ⟨1, _⟩ => rfl)).trans ?_
  exact extractStridedSlice_apply ![1, 0] P _ (ix2 n k) (ix2 (hi n) k) (fun a => match a with
    | ⟨0, _⟩ => by show n.val + 1 = 1 + n.val; omega
    | ⟨1, _⟩ => by show k.val = 0 + k.val; omega)

/-- The first 131071 rows of the kernel program's edge attributes are the reference's edge attributes. -/
theorem head_edges (a0 : (⟨2, ![131072, 256]⟩ : Shape).Idx → EReal) (a1 : (⟨2, ![131072, 3]⟩ : Shape).Idx → EReal) (a2 : (⟨2, ![513, 256]⟩ : Shape).Idx → EReal) (a3 : (⟨1, ![256]⟩ : Shape).Idx → EReal) (a4 : (⟨2, ![256, 256]⟩ : Shape).Idx → EReal) (a5 : (⟨1, ![256]⟩ : Shape).Idx → EReal) :
    headH (edgeArr a0 (upH a0) a1 (upP a1) a2 a3 a4 a5) = Cert.ReferenceIdeal.Read.val_main_v15 (F := Ideal) a0 a1 a2 a3 a4 a5 := by
  funext i
  obtain ⟨n, c, rfl⟩ : ∃ (n : Fin 131071) (c : Fin 256), i = ix2 n c := ⟨i 0, i 1, eq_ix2 i⟩
  refine Eq.trans ?_ (ref_edge a0 a1 a2 a3 a4 a5 n c).symm
  refine (extractStridedSlice_apply ![0, 0] _ _ (ix2 n c) (ix2 (lo n) c) (fun a => match a with
    | ⟨0, _⟩ => by show n.val = 0 + n.val; omega
    | ⟨1, _⟩ => by show c.val = 0 + c.val; omega)).trans ?_
  show edgeRow (rowOf a0 (rowAt (ix2 (lo n) c))) (rowOf (upH a0) (rowAt (ix2 (lo n) c))) (rowOf a1 (rowAt (ix2 (lo n) c))) (rowOf (upP a1) (rowAt (ix2 (lo n) c)))
    (matOf a2) (vecOf a3) (matOf a4) (vecOf a5) (colAt (ix2 (lo n) c)) = _
  rw [rowAt_ix2, colAt_ix2, upH_row, upP_row]

/-- The first 131071 rows of the kernel program's shifts of position are the reference's. -/
theorem head_shifts (a0 : (⟨2, ![131072, 256]⟩ : Shape).Idx → EReal) (a1 : (⟨2, ![131072, 3]⟩ : Shape).Idx → EReal) (a2 : (⟨2, ![513, 256]⟩ : Shape).Idx → EReal) (a3 : (⟨1, ![256]⟩ : Shape).Idx → EReal) (a4 : (⟨2, ![256, 256]⟩ : Shape).Idx → EReal) (a5 : (⟨1, ![256]⟩ : Shape).Idx → EReal) (a6 : (⟨2, ![256, 256]⟩ : Shape).Idx → EReal) (a7 : (⟨1, ![256]⟩ : Shape).Idx → EReal) (a8 : (⟨2, ![256, 3]⟩ : Shape).Idx → EReal) :
    headP (shiftArr a0 (upH a0) a1 (upP a1) a2 a3 a4 a5 a6 a7 a8) = Cert.ReferenceIdeal.Read.val_main_v21 (F := Ideal) a0 a1 a2 a3 a4 a5 a6 a7 a8 := by
  funext i
  obtain ⟨n, d, rfl⟩ : ∃ (n : Fin 131071) (d : Fin 3), i = ix2 n d := ⟨i 0, i 1, eq_ix2 i⟩
  refine Eq.trans ?_ (ref_shift a0 a1 a2 a3 a4 a5 a6 a7 a8 n d).symm
  refine (extractStridedSlice_apply ![0, 0] _ _ (ix2 n d) (ix2 (lo n) d) (fun a => match a with
    | ⟨0, _⟩ => by show n.val = 0 + n.val; omega
    | ⟨1, _⟩ => by show d.val = 0 + d.val; omega)).trans ?_
  show shiftRow (edgeRow (rowOf a0 (rowAt (ix2 (lo n) d))) (rowOf (upH a0) (rowAt (ix2 (lo n) d))) (rowOf a1 (rowAt (ix2 (lo n) d))) (rowOf (upP a1) (rowAt (ix2 (lo n) d)))
    (matOf a2) (vecOf a3) (matOf a4) (vecOf a5)) (matOf a6) (vecOf a7) (matOf a8) (colAt (ix2 (lo n) d)) = _
  rw [rowAt_ix2, colAt_ix2, upH_row, upP_row]

/-- The nodes' updates: both programs add the edge attributes with a zero row behind to the same with a zero row in front. -/
theorem updates_eq (a0 : (⟨2, ![131072, 256]⟩ : Shape).Idx → EReal) (a1 : (⟨2, ![131072, 3]⟩ : Shape).Idx → EReal) (a2 : (⟨2, ![513, 256]⟩ : Shape).Idx → EReal) (a3 : (⟨1, ![256]⟩ : Shape).Idx → EReal) (a4 : (⟨2, ![256, 256]⟩ : Shape).Idx → EReal) (a5 : (⟨1, ![256]⟩ : Shape).Idx → EReal) :
    pairSum (Cert.ReferenceIdeal.Read.val_main_v15 (F := Ideal) a0 a1 a2 a3 a4 a5) = Cert.ReferenceIdeal.Read.val_main_v29 (F := Ideal) a0 a1 a2 a3 a4 a5 := by
  unfold pairSum Cert.ReferenceIdeal.Read.val_main_v29 Cert.ReferenceIdeal.Read.val_main_v27 Cert.ReferenceIdeal.Read.val_main_v28
    Cert.ReferenceIdeal.Read.val_main_v23 Cert.ReferenceIdeal.Read.val_main_cst_0
  rfl

/-- The nodes' new features. -/
theorem nodes_eq (a0 : (⟨2, ![131072, 256]⟩ : Shape).Idx → EReal) (a1 : (⟨2, ![131072, 3]⟩ : Shape).Idx → EReal) (a2 : (⟨2, ![513, 256]⟩ : Shape).Idx → EReal) (a3 : (⟨1, ![256]⟩ : Shape).Idx → EReal) (a4 : (⟨2, ![256, 256]⟩ : Shape).Idx → EReal) (a5 : (⟨1, ![256]⟩ : Shape).Idx → EReal) (a9 : (⟨2, ![512, 256]⟩ : Shape).Idx → EReal) (a10 : (⟨1, ![256]⟩ : Shape).Idx → EReal) (a11 : (⟨2, ![256, 256]⟩ : Shape).Idx → EReal) (a12 : (⟨1, ![256]⟩ : Shape).Idx → EReal) :
    nodeArr a0 (Cert.ReferenceIdeal.Read.val_main_v29 (F := Ideal) a0 a1 a2 a3 a4 a5) a9 a10 a11 a12
      = Cert.ReferenceIdeal.Read.val_main_v39 (F := Ideal) a0 a1 a2 a3 a4 a5 a9 a10 a11 a12 := by
  funext i
  obtain ⟨n, c, rfl⟩ : ∃ (n : Fin 131072) (c : Fin 256), i = ix2 n c := ⟨i 0, i 1, eq_ix2 i⟩
  exact (ref_node a0 a1 a2 a3 a4 a5 a9 a10 a11 a12 n c).symm

/-- The new positions: both programs add a tenth of `[D; 0] - [0; D]` to the positions. -/
theorem positions_eq (a0 : (⟨2, ![131072, 256]⟩ : Shape).Idx → EReal) (a1 : (⟨2, ![131072, 3]⟩ : Shape).Idx → EReal) (a2 : (⟨2, ![513, 256]⟩ : Shape).Idx → EReal) (a3 : (⟨1, ![256]⟩ : Shape).Idx → EReal) (a4 : (⟨2, ![256, 256]⟩ : Shape).Idx → EReal) (a5 : (⟨1, ![256]⟩ : Shape).Idx → EReal) (a6 : (⟨2, ![256, 256]⟩ : Shape).Idx → EReal) (a7 : (⟨1, ![256]⟩ : Shape).Idx → EReal) (a8 : (⟨2, ![256, 3]⟩ : Shape).Idx → EReal) :
    newPos a1 (pairDiff (Cert.ReferenceIdeal.Read.val_main_v21 (F := Ideal) a0 a1 a2 a3 a4 a5 a6 a7 a8))
      = Cert.ReferenceIdeal.Read.val_main_v42 (F := Ideal) a0 a1 a2 a3 a4 a5 a6 a7 a8 := by
  unfold newPos pairDiff Cert.ReferenceIdeal.Read.val_main_v42 Cert.ReferenceIdeal.Read.val_main_v41 Cert.ReferenceIdeal.Read.val_main_v40
    Cert.ReferenceIdeal.Read.val_main_cst_1 Cert.ReferenceIdeal.Read.val_main_v26 Cert.ReferenceIdeal.Read.val_main_v24
    Cert.ReferenceIdeal.Read.val_main_v25 Cert.ReferenceIdeal.Read.val_main_v22 Cert.ReferenceIdeal.Read.val_main_cst
  rfl

/-- The kernel program's first result is the reference's. -/
theorem features_eq (a0 : (⟨2, ![131072, 256]⟩ : Shape).Idx → EReal) (a1 : (⟨2, ![131072, 3]⟩ : Shape).Idx → EReal) (a2 : (⟨2, ![513, 256]⟩ : Shape).Idx → EReal) (a3 : (⟨1, ![256]⟩ : Shape).Idx → EReal) (a4 : (⟨2, ![256, 256]⟩ : Shape).Idx → EReal) (a5 : (⟨1, ![256]⟩ : Shape).Idx → EReal) (a9 : (⟨2, ![512, 256]⟩ : Shape).Idx → EReal) (a10 : (⟨1, ![256]⟩ : Shape).Idx → EReal) (a11 : (⟨2, ![256, 256]⟩ : Shape).Idx → EReal) (a12 : (⟨1, ![256]⟩ : Shape).Idx → EReal) :
    nodeArr a0 (pairSum (headH (edgeArr a0 (upH a0) a1 (upP a1) a2 a3 a4 a5))) a9 a10 a11 a12
      = Cert.ReferenceIdeal.Read.val_main_v39 (F := Ideal) a0 a1 a2 a3 a4 a5 a9 a10 a11 a12 :=
  (congrArg (fun E => nodeArr a0 (pairSum E) a9 a10 a11 a12) (head_edges a0 a1 a2 a3 a4 a5)).trans
    ((congrArg (fun U => nodeArr a0 U a9 a10 a11 a12) (updates_eq a0 a1 a2 a3 a4 a5)).trans
      (nodes_eq a0 a1 a2 a3 a4 a5 a9 a10 a11 a12))

/-- The kernel program's second result is the reference's. -/
theorem newpos_eq (a0 : (⟨2, ![131072, 256]⟩ : Shape).Idx → EReal) (a1 : (⟨2, ![131072, 3]⟩ : Shape).Idx → EReal) (a2 : (⟨2, ![513, 256]⟩ : Shape).Idx → EReal) (a3 : (⟨1, ![256]⟩ : Shape).Idx → EReal) (a4 : (⟨2, ![256, 256]⟩ : Shape).Idx → EReal) (a5 : (⟨1, ![256]⟩ : Shape).Idx → EReal) (a6 : (⟨2, ![256, 256]⟩ : Shape).Idx → EReal) (a7 : (⟨1, ![256]⟩ : Shape).Idx → EReal) (a8 : (⟨2, ![256, 3]⟩ : Shape).Idx → EReal) :
    newPos a1 (pairDiff (headP (shiftArr a0 (upH a0) a1 (upP a1) a2 a3 a4 a5 a6 a7 a8)))
      = Cert.ReferenceIdeal.Read.val_main_v42 (F := Ideal) a0 a1 a2 a3 a4 a5 a6 a7 a8 :=
  (congrArg (fun D => newPos a1 (pairDiff D)) (head_shifts a0 a1 a2 a3 a4 a5 a6 a7 a8)).trans
    (positions_eq a0 a1 a2 a3 a4 a5 a6 a7 a8)

end Cert.Bridge

end
-- ==== Proof.lean ====
/-
  The certificate of a message-passing layer on a chain graph: a Pallas program of two kernels (edge and position MLPs
  over 2048-row blocks of edges; node MLP over 2048-row blocks of nodes) with host operations around them, against its
  jnp reference, on the extended reals.

  The three frames are the generated ones (the reference's is its generated run with the results dropped); no operation
  was rewritten by the idealization, so there is nothing to preserve. For the value claim both runs are read whole: the
  kernel program's results are the last segment boundary's contents, which walk back through the two launches and the
  host operations to functions of the argument arrays (row by row: the edge attribute row, the shift of position, the
  node's new feature row); the reference's results are its operations' composed term, read at an entry as the same row
  functions. Edge `n` uses rows `n` and `n + 1`: the kernel program reads row `n + 1` as row `n` of the array shifted up
  by one, computes one more (unused) row, and drops it.
-/
import proofs.«170481_j40836549050449_1_alg».proof.Defs
import proofs.«170481_j40836549050449_1_alg».proof.Proof.Gen.Kernel
import proofs.«170481_j40836549050449_1_alg».proof.Proof.Gen.Kernel.Skeleton
import proofs.«170481_j40836549050449_1_alg».proof.Proof.Gen.Kernel.Launch
import proofs.«170481_j40836549050449_1_alg».proof.Proof.Gen.Kernel.Points
import proofs.«170481_j40836549050449_1_alg».proof.Proof.Gen.Kernel.Frame
import proofs.«170481_j40836549050449_1_alg».proof.Proof.Gen.KernelIdeal
import proofs.«170481_j40836549050449_1_alg».proof.Proof.Gen.KernelIdeal.Skeleton
import proofs.«170481_j40836549050449_1_alg».proof.Proof.Gen.KernelIdeal.Launch
import proofs.«170481_j40836549050449_1_alg».proof.Proof.Gen.KernelIdeal.Points
import proofs.«170481_j40836549050449_1_alg».proof.Proof.Gen.KernelIdeal.Frame
import proofs.«170481_j40836549050449_1_alg».proof.Proof.Gen.ReferenceIdeal
import proofs.«170481_j40836549050449_1_alg».proof.Proof.Gen.Pre_finite_inputs
import proofs.«170481_j40836549050449_1_alg».proof.Proof.Gen.ReferenceIdeal.Run
import proofs.«170481_j40836549050449_1_alg».proof.Proof.Gen.ReferenceIdeal.Read
import proofs.«170481_j40836549050449_1_alg».proof.Proof.KernelRun
import proofs.«170481_j40836549050449_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the nodes' new features and the new positions as the same functions of the arguments. -/
theorem algebraic : Cert.algebraic_KernelIdeal_ReferenceIdeal := by
  intro m ρ m' ρ' _ hagree
  refine ⟨fun c => Cert.KernelIdeal.Whole.N0 m c,
    fun c => Cert.KernelIdeal.Whole.newPos (m ((c.tc : Thread Cert.KernelIdeal.nD Cert.KernelIdeal.τ).loc Cert.KernelIdeal.main_arg1)) (Cert.KernelIdeal.Whole.pairDiff (Cert.KernelIdeal.Whole.headP (Cert.KernelIdeal.Whole.D0 m c))), ?_, ?_⟩
  · exact (θ_run Cert.KernelIdeal.defs _ _).mono
      (fun r h c => ⟨(h c).1.trans (Cert.KernelIdeal.Whole.result_features m ρ c), (h c).2.1.trans (Cert.KernelIdeal.Whole.result_positions m ρ c), (h c).2.2⟩)
      (Cert.KernelIdeal.Whole.run_results (F := Ideal) m ρ)
  · refine (θ_run Cert.ReferenceIdeal.defs _ _).mono (fun r h c => ?_) (Cert.ReferenceIdeal.Value.run (F := Ideal) m' ρ')
    obtain ⟨g0, g1, g2, g3, g4, g5, g6, g7, g8, g9, g10, g11, g12⟩ := hagree c
    refine ⟨(h c).1.trans ?_, (h c).2.1.trans ?_, (h c).2.2⟩
    · rw [Cert.ReferenceIdeal.Read.val_main_v39_eq, g0, g1, g2, g3, g4, g5, g9, g10, g11, g12]
      exact (Cert.Bridge.features_eq _ _ _ _ _ _ _ _ _ _).symm
    · rw [Cert.ReferenceIdeal.Read.val_main_v42_eq, g0, g1, g2, g3, g4, g5, g6, g7, g8]
      exact (Cert.Bridge.newpos_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
